-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_v57) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S3584x512 : Shape := ⟨2, ![3584, 512]⟩
abbrev S3584 : Shape := ⟨1, ![3584]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S3584x512 : S_.BroadcastsInDim S3584x512 (![] : Fin 0 → Fin S3584x512.rank)
  reducesTo_S3584x512_S_d0_1 : S3584x512.ReducesTo [0, 1] S_
  bcast_S_S3584 : S_.BroadcastsInDim S3584 (![] : Fin 0 → Fin S3584.rank)
  reducesTo_S3584_S_d0 : S3584.ReducesTo [0] S_

variable [Facts]

def fn_part1 {F : FTy → Type} [FloatOps F] (main_arg4 : FVec F S3584 .f32) (main_arg5 : FVec F S3584x512 .f32) (main_arg6 : FVec F S3584 .f32) (main_v13 : IVec S_ 1) (main_v16 : IVec S3584x512 1) : IVec S_ 1 :=
  let main_c_5 : IVec S_ 1 := constantI S_ 1 1#1
  let main_v17 : IVec S_ 1 := (fun x v => Host.reduce IntOp.andi x v reducesTo_S3584x512_S_d0_1 h_S_) main_v16 main_c_5
  let main_v18 : IVec S_ 1 := andi main_v13 main_v17
  let main_v19 : FVec F S3584 .f32 := Host.absf main_arg4
  let main_cst_6 : FVec F S_ .f32 := constant S_ .f32 0x7F800000#32
  let main_v20 : FVec F S3584 .f32 := broadcastInDim S3584 ![] bcast_S_S3584 main_cst_6
  let main_v21 : IVec S3584 1 := cmpf .olt main_v19 main_v20
  let main_c_7 : IVec S_ 1 := constantI S_ 1 1#1
  let main_v22 : IVec S_ 1 := (fun x v => Host.reduce IntOp.andi x v reducesTo_S3584_S_d0 h_S_) main_v21 main_c_7
  let main_v23 : IVec S_ 1 := andi main_v18 main_v22
  let main_v24 : FVec F S3584x512 .f32 := Host.absf main_arg5
  let main_cst_8 : FVec F S_ .f32 := constant S_ .f32 0x7F800000#32
  let main_v25 : FVec F S3584x512 .f32 := broadcastInDim S3584x512 ![] bcast_S_S3584x512 main_cst_8
  let main_v26 : IVec S3584x512 1 := cmpf .olt main_v24 main_v25
  let main_c_9 : IVec S_ 1 := constantI S_ 1 1#1
  let main_v27 : IVec S_ 1 := (fun x v => Host.reduce IntOp.andi x v reducesTo_S3584x512_S_d0_1 h_S_) main_v26 main_c_9
  let main_v28 : IVec S_ 1 := andi main_v23 main_v27
  let main_v29 : FVec F S3584 .f32 := Host.absf main_arg6
  let main_cst_10 : FVec F S_ .f32 := constant S_ .f32 0x7F800000#32
  let main_v30 : FVec F S3584 .f32 := broadcastInDim S3584 ![] bcast_S_S3584 main_cst_10
  let main_v31 : IVec S3584 1 := cmpf .olt main_v29 main_v30
  let main_c_11 : IVec S_ 1 := constantI S_ 1 1#1
  let main_v32 : IVec S_ 1 := (fun x v => Host.reduce IntOp.andi x v reducesTo_S3584_S_d0 h_S_) main_v31 main_c_11
  let main_v33 : IVec S_ 1 := andi main_v28 main_v32
  main_v33

def fn {F : FTy → Type} [FloatOps F] (main_arg0 : FVec F S16384x512 .f32) (main_arg1 : FVec F S16384x512 .f32) (main_arg2 : FVec F S16384x512 .f32) (main_arg3 : FVec F S3584x512 .f32) (main_arg4 : FVec F S3584 .f32) (main_arg5 : FVec F S3584x512 .f32) (main_arg6 : FVec F S3584 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S3584x512 .f32 := Host.absf main_arg3
  let main_cst_4 : FVec F S_ .f32 := constant S_ .f32 0x7F800000#32
  let main_v15 : FVec F S3584x512 .f32 := broadcastInDim S3584x512 ![] bcast_S_S3584x512 main_cst_4
  let main_v16 : IVec S3584x512 1 := cmpf .olt main_v14 main_v15
  fn_part1 (F := F) main_arg4 main_arg5 main_arg6 main_v13 main_v16
-- ==== Kernel.lean ====
abbrev S16384x512 : Shape := ⟨2, ![16384, 512]⟩
abbrev S3584x512 : Shape := ⟨2, ![3584, 512]⟩
abbrev S3584 : Shape := ⟨1, ![3584]⟩
abbrev S1x3584 : Shape := ⟨2, ![1, 3584]⟩
abbrev S512x512 : Shape := ⟨2, ![512, 512]⟩
abbrev S512x3584 : Shape := ⟨2, ![512, 3584]⟩

abbrev nBuf : Space → Nat
  | .hbm => 14
  | .vmem => 20
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S3584x512, .f32⟩
  | .hbm, ⟨4, _⟩ => ⟨S3584, .f32⟩
  | .hbm, ⟨5, _⟩ => ⟨S3584x512, .f32⟩
  | .hbm, ⟨6, _⟩ => ⟨S3584, .f32⟩
  | .hbm, ⟨7, _⟩ => ⟨S1x3584, .f32⟩
  | .hbm, ⟨8, _⟩ => ⟨S1x3584, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S3584x512, .f32⟩
  | .local _ .vmem, ⟨7, _⟩ => ⟨S3584x512, .f32⟩
  | .local _ .vmem, ⟨8, _⟩ => ⟨S1x3584, .f32⟩
  | .local _ .vmem, ⟨9, _⟩ => ⟨S1x3584, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3584x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3584x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S3584_S1x3584 : S3584.ShapeCasts S1x3584
  inb_S512x512_S512x512_0_0 : ∀ a, (![0, 0] : Fin 2 → Nat) a + S512x512.size a ≤ S512x512.size a
  h_S512x512 : 0 < S512x512.numel
  inb_S3584x512_S3584x512_0_0 : ∀ a, (![0, 0] : Fin 2 → Nat) a + S3584x512.size a ≤ S3584x512.size a
  h_S3584x512 : 0 < S3584x512.numel
  inb_S1x3584_S1x3584_0_0 : ∀ a, (![0, 0] : Fin 2 → Nat) a + S1x3584.size a ≤ S1x3584.size a
  h_S1x3584 : 0 < S1x3584.numel
  shapeCasts_S1x3584_S1x3584 : S1x3584.ShapeCasts S1x3584
  broadcasts_S1x3584_S512x3584 : S1x3584.Broadcasts S512x3584
  slices_S512x3584_o0_0_S512x512 : S512x3584.Slices ![0, 0] S512x512
  slices_S512x3584_o0_512_S512x512 : S512x3584.Slices ![0, 512] S512x512
  slices_S512x3584_o0_1024_S512x512 : S512x3584.Slices ![0, 1024] S512x512
  slices_S512x3584_o0_1536_S512x512 : S512x3584.Slices ![0, 1536] S512x512
  slices_S512x3584_o0_2048_S512x512 : S512x3584.Slices ![0, 2048] S512x512
  slices_S512x3584_o0_2560_S512x512 : S512x3584.Slices ![0, 2560] S512x512
  slices_S512x3584_o0_3072_S512x512 : S512x3584.Slices ![0, 3072] S512x512
  dot_S512x512_S3584x512_S512x3584_1_1_0_0_n_n_wf : DotDims.WF S512x512 S3584x512 S512x3584 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3584x512.size a ≤ S3584x512.size a
  hwx0_3 : ∀ i : grid0.Coords, EltTy.bits .f32 = 32 ∨ (Rect.block (s := S3584x512) S3584x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3584x512.size a ≤ S3584x512.size a
  hwx0_4 : ∀ i : grid0.Coords, EltTy.bits .f32 = 32 ∨ (Rect.block (s := S3584x512) S3584x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3584.size a ≤ S1x3584.size a
  hwx0_5 : ∀ i : grid0.Coords, EltTy.bits .f32 = 32 ∨ (Rect.block (s := S1x3584) S1x3584.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3584.size a ≤ S1x3584.size a
  hwx0_6 : ∀ i : grid0.Coords, EltTy.bits .f32 = 32 ∨ (Rect.block (s := S1x3584) S1x3584.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S16384x512.size a
  hwx0_7 : ∀ i : grid0.Coords, EltTy.bits .f32 = 32 ∨ (Rect.block (s := S16384x512) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S16384x512.size a
  hwx0_8 : ∀ i : grid0.Coords, EltTy.bits .f32 = 32 ∨ (Rect.block (s := S16384x512) S512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S16384x512.size a
  hwx0_9 : ∀ i : grid0.Coords, EltTy.bits .f32 = 32 ∨ (Rect.block (s := S16384x512) S512x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S16384x512.size a
  hwx0_10 : ∀ i : grid0.Coords, EltTy.bits .f32 = 32 ∨ (Rect.block (s := S16384x512) S512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S16384x512.size a
  hwx0_11 : ∀ i : grid0.Coords, EltTy.bits .f32 = 32 ∨ (Rect.block (s := S16384x512) S512x512.size (cc0_transform_11 i) (hinb0_11 i)).WholeWords (EltTy.packing .f32)

variable [Facts₀]

def dot_S512x512_S3584x512_S512x3584_1_1_0_0_n_n : DotDims S512x512 S3584x512 S512x3584 where
  lhsContracting := [1]
  rhsContracting := [1]
  lhsNonContracting := [0]
  rhsNonContracting := [0]
  lhsBatch := []
  rhsBatch := []
  wf := dot_S512x512_S3584x512_S512x3584_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3584x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S3584x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x3584.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x3584.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S512x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_2) S512x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_3) S512x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v2_4) S512x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x512 : Shape := ⟨2, ![16384, 512]⟩
abbrev S3584x512 : Shape := ⟨2, ![3584, 512]⟩
abbrev S3584 : Shape := ⟨1, ![3584]⟩
abbrev S512x3584 : Shape := ⟨2, ![512, 3584]⟩
abbrev S16384x3584 : Shape := ⟨2, ![16384, 3584]⟩
abbrev S1x3584 : Shape := ⟨2, ![1, 3584]⟩
abbrev S_ : Shape := ⟨0, ![]⟩

abbrev nBuf : Space → Nat
  | .hbm => 88
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S3584x512, .f32⟩
  | .hbm, ⟨4, _⟩ => ⟨S3584, .f32⟩
  | .hbm, ⟨5, _⟩ => ⟨S3584x512, .f32⟩
  | .hbm, ⟨6, _⟩ => ⟨S3584, .f32⟩
  | .hbm, ⟨7, _⟩ => ⟨S512x3584, .f32⟩
  | .hbm, ⟨8, _⟩ => ⟨S16384x3584, .f32⟩
  | .hbm, ⟨9, _⟩ => ⟨S1x3584, .f32⟩
  | .hbm, ⟨10, _⟩ => ⟨S16384x3584, .f32⟩
  | .hbm, ⟨11, _⟩ => ⟨S16384x3584, .f32⟩
  | .hbm, ⟨12, _⟩ => ⟨S512x3584, .f32⟩
  | .hbm, ⟨13, _⟩ => ⟨S16384x3584, .f32⟩
  | .hbm, ⟨14, _⟩ => ⟨S1x3584, .f32⟩
  | .hbm, ⟨15, _⟩ => ⟨S16384x3584, .f32⟩
  | .hbm, ⟨16, _⟩ => ⟨S16384x3584, .f32⟩
  | .hbm, ⟨17, _⟩ => ⟨S16384x3584, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S_, .f32⟩
  | .hbm, ⟨45, _⟩ => ⟨S16384x512, .f32⟩
  | .hbm, ⟨46, _⟩ => ⟨S16384x512, .f32⟩
  | .hbm, ⟨47, _⟩ => ⟨S_, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S_, .f32⟩
  | .hbm, ⟨53, _⟩ => ⟨S16384x512, .f32⟩
  | .hbm, ⟨54, _⟩ => ⟨S16384x512, .f32⟩
  | .hbm, ⟨55, _⟩ => ⟨S_, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S16384x512, .f32⟩
  | .hbm, ⟨60, _⟩ => ⟨S_, .f32⟩
  | .hbm, ⟨61, _⟩ => ⟨S16384x512, .f32⟩
  | .hbm, ⟨62, _⟩ => ⟨S16384x512, .f32⟩
  | .hbm, ⟨63, _⟩ => ⟨S_, .f32⟩
  | .hbm, ⟨64, _⟩ => ⟨S16384x512, .f32⟩
  | .hbm, ⟨65, _⟩ => ⟨S16384x512, .f32⟩
  | .hbm, ⟨66, _⟩ => ⟨S16384x512, .f32⟩
  | .hbm, ⟨67, _⟩ => ⟨S16384x512, .f32⟩
  | .hbm, ⟨68, _⟩ => ⟨S16384x512, .f32⟩
  | .hbm, ⟨69, _⟩ => ⟨S16384x512, .f32⟩
  | .hbm, ⟨70, _⟩ => ⟨S16384x512, .f32⟩
  | .hbm, ⟨71, _⟩ => ⟨S16384x512, .f32⟩
  | .hbm, ⟨72, _⟩ => ⟨S16384x512, .f32⟩
  | .hbm, ⟨73, _⟩ => ⟨S16384x512, .f32⟩
  | .hbm, ⟨74, _⟩ => ⟨S_, .f32⟩
  | .hbm, ⟨75, _⟩ => ⟨S16384x512, .f32⟩
  | .hbm, ⟨76, _⟩ => ⟨S16384x512, .f32⟩
  | .hbm, ⟨77, _⟩ => ⟨S16384x512, .f32⟩
  | .hbm, ⟨78, _⟩ => ⟨S16384x512, .f32⟩
  | .hbm, ⟨79, _⟩ => ⟨S16384x512, .i1⟩
  | .hbm, ⟨80, _⟩ => ⟨S16384x512, .f32⟩
  | .hbm, ⟨81, _⟩ => ⟨S16384x512, .f32⟩
  | .hbm, ⟨82, _⟩ => ⟨S16384x512, .f32⟩
  | .hbm, ⟨83, _⟩ => ⟨S16384x512, .f32⟩
  | .hbm, ⟨84, _⟩ => ⟨S16384x512, .f32⟩
  | .hbm, ⟨85, _⟩ => ⟨S16384x512, .f32⟩
  | .hbm, ⟨86, _⟩ => ⟨S16384x512, .f32⟩
  | .hbm, ⟨87, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_v5 : Ref sig .tc := ⟨.hbm, 80, rfl⟩
abbrev main_call0_v6 : Ref sig .tc := ⟨.hbm, 81, rfl⟩
abbrev main_call0_v7 : Ref sig .tc := ⟨.hbm, 82, rfl⟩
abbrev main_call0_v8 : Ref sig .tc := ⟨.hbm, 83, rfl⟩
abbrev main_call0_v9 : Ref sig .tc := ⟨.hbm, 84, rfl⟩
abbrev main_call0_v10 : Ref sig .tc := ⟨.hbm, 85, rfl⟩
abbrev main_call0_v11 : Ref sig .tc := ⟨.hbm, 86, rfl⟩
abbrev main_v57 : Ref sig .tc := ⟨.hbm, 87, rfl⟩

abbrev nD : Nat := 1
abbrev τ : Topo := Topo.v7x

variable {F : FTy → Type} [FloatOps F]

class Facts₀ : Prop where
  transposes_S3584x512_S512x3584_1_0 : S3584x512.Transposes [1, 0] S512x3584
  bcast_S3584_S1x3584_1 : S3584.BroadcastsInDim S1x3584 (![1] : Fin 1 → Fin S1x3584.rank)
  bcast_S1x3584_S16384x3584_0_1 : S1x3584.BroadcastsInDim S16384x3584 (![0, 1] : Fin 2 → Fin S16384x3584.rank)
  slices_S16384x3584_S16384x512_0_0 : S16384x3584.Slices ![0, 0] S16384x512
  slices_S16384x3584_S16384x512_0_512 : S16384x3584.Slices ![0, 512] S16384x512
  slices_S16384x3584_S16384x512_0_1024 : S16384x3584.Slices ![0, 1024] S16384x512
  slices_S16384x3584_S16384x512_0_1536 : S16384x3584.Slices ![0, 1536] S16384x512
  slices_S16384x3584_S16384x512_0_2048 : S16384x3584.Slices ![0, 2048] S16384x512
  slices_S16384x3584_S16384x512_0_2560 : S16384x3584.Slices ![0, 2560] S16384x512
  slices_S16384x3584_S16384x512_0_3072 : S16384x3584.Slices ![0, 3072] S16384x512
  bcast_S_S16384x512 : S_.BroadcastsInDim S16384x512 (![] : Fin 0 → Fin S16384x512.rank)
  dot_S16384x512_S512x3584_S16384x3584_1_0_0_1_n_n_wf : DotDims.WF S16384x512 S512x3584 S16384x3584 [1] [0] [0] [1] [] []

variable [Facts₀]

def dot_S16384x512_S512x3584_S16384x3584_1_0_0_1_n_n : DotDims S16384x512 S512x3584 S16384x3584 where
  lhsContracting := [1]
  rhsContracting := [0]
  lhsNonContracting := [0]
  rhsNonContracting := [1]
  lhsBatch := []
  rhsBatch := []
  wf := dot_S16384x512_S512x3584_S16384x3584_1_0_0_1_n_n_wf

class Facts : Prop extends Facts₀ where

variable [Facts]
-- ==== Proof.LibTransDot.lean ====
/-
  A matrix product against a transposed right operand, read at an index, at the extended reals.

  For a rank-2 product `[M, K] · [N, K]ᵀ → [M, N]` (one contracted axis: the left operand's columns against the right
  operand's COLUMNS, no batch axis) accumulated into the zero block, the entry at `(p, e)` is the finite sum over the
  contracted coordinate `k` of `lhs (p, k) · rhs (e, k)`: row `p` of the left operand against row `e` of the right one.
  The product's dimension record enters only through four coordinate facts about its operand index maps (each a one-line
  computation for a literal record), so the lemma serves any such record at any extents.
-/
import Idealize.ShloMosaic.Lib.ValueIdx
import Idealize.ShloMosaic.PureOps.Ideal.Laws

noncomputable section

namespace Cert.LibTransDot

open Idealize.ShloMosaic Idealize.ShloMosaic.ValueIdx

/-- `[M, K] · [N, K]ᵀ` into the zero accumulator, at `(p, e)`: `∑ₖ lhs (p, k) · rhs (e, k)`. The hypotheses say that the
    record contracts ONE axis of extent `K`, that the left operand is read at (output row, contracted coordinate) and the
    right operand at (output column, contracted coordinate). -/
theorem matmul_zero_apply {M K N : ℕ} {φ₁ φ₂ : FTy}
    (D : DotDims ⟨2, ![M, K]⟩ ⟨2, ![N, K]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![M, K]⟩ φ₁) (rhs : FVec Ideal ⟨2, ![N, K]⟩ φ₂) (p : Fin M) (e : Fin N) :
    matmul D none lhs rhs (constant (F := Ideal) ⟨2, ![M, N]⟩ .f32 0x00000000#32) (ix2 p e)
      = ∑ k : Fin K, lhs (ix2 p k) * rhs (ix2 e k) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 e k := funext fun a => Fin.ext (by
    match a with
    | ⟨0, _⟩ => exact hr0 _ _
    | ⟨1, _⟩ => exact (hr1 _ _).trans hk)
  rw [el, er]

end Cert.LibTransDot

end
-- ==== Proof.LibGateFunctions.lean ====
/-
  Two gate functions, each in the two spellings programs use, over the extended reals.

  The logistic function is 1 / (1 + exp (−w)) by definition, so a program that writes that quotient out, with the
  single-precision word of 1.0 for both ones, computes the logistic function of w, for every extended real w.

  softplus w is taken in the form log-add-exp of w and 0 has: max w 0 + log (1 + exp (−|w − 0|)), with |a| = max a (−a).
  Programs guard that expression by the test "w − 0 differs from itself" (true only of a value that is not a number),
  returning w + 0 when it holds. No extended real differs from itself, whether the comparison is the ordered or the
  unordered "not equal", so the guard selects the unguarded branch; and a negation written 0 − a is −a. Hence both guarded
  spellings are softplus w, for every extended real w.
-/
import Idealize.ShloMosaic.Lib.ValueIdx
import Idealize.ShloMosaic.PureOps.Ideal.Laws

noncomputable section

namespace Cert.LibGateFunctions

open Idealize.ShloMosaic Idealize.ShloMosaic.ValueIdx

/-- The single-precision word of 1.0 denotes the real number 1. -/
theorem one_f32 : Ideal.ofBits .f32 0x3F800000#32 = 1 := by
  simp [Ideal.ofBits, Ideal.ieee, -EReal.coe_mul]; norm_num

/-- The logistic function written out as the quotient 1 / (1 + exp (−w)) is the logistic function. -/
theorem logistic_quotient (w : EReal) :
    Ideal.div (Ideal.ofBits .f32 0x3F800000#32) (Ideal.ofBits .f32 0x3F800000#32 + Ideal.exp (-w)) = Ideal.logistic w := by
  rw [one_f32]; rfl

/-- softplus, in the form log-add-exp of w and 0 takes. -/
def softplus (w : EReal) : EReal := max w 0 + Ideal.log1p (Ideal.exp (-(max (w - 0) (-(w - 0)))))

/-- No extended real differs from itself: the ordered "not equal" of d with d is the bit 0 … -/
theorem ne_self_ordered (d : EReal) : Ideal.cmp .one d d = 0#1 := by simp [Ideal.cmp]
/-- … and so is the unordered one. -/
theorem ne_self_unordered (d : EReal) : Ideal.cmp .une d d = 0#1 := by simp [Ideal.cmp]

/-- A guarded softplus whose guard is the ordered comparison and whose negation is written 0 − a. -/
theorem softplus_guard_sub (w : EReal) :
    Scalar.select (Ideal.cmp .one (w - Ideal.ofBits .f32 0x00000000#32) (w - Ideal.ofBits .f32 0x00000000#32))
        (w + Ideal.ofBits .f32 0x00000000#32)
        (max w (Ideal.ofBits .f32 0x00000000#32)
          + Ideal.log1p (Ideal.exp (Ideal.ofBits .f32 0x00000000#32
              - max (w - Ideal.ofBits .f32 0x00000000#32) (-(w - Ideal.ofBits .f32 0x00000000#32)))))
      = softplus w := by
  rw [ne_self_ordered, select_zero, Ideal.ofBits_zero_f32, zero_sub]; rfl

/-- A guarded softplus whose guard is the unordered comparison and whose negation is written −a. -/
theorem softplus_guard_neg (w : EReal) :
    Scalar.select (Ideal.cmp .une (w - Ideal.ofBits .f32 0x00000000#32) (w - Ideal.ofBits .f32 0x00000000#32))
        (w + Ideal.ofBits .f32 0x00000000#32)
        (max w (Ideal.ofBits .f32 0x00000000#32)
          + Ideal.log1p (Ideal.exp (-(max (w - Ideal.ofBits .f32 0x00000000#32) (-(w - Ideal.ofBits .f32 0x00000000#32))))))
      = softplus w := by
  rw [ne_self_unordered, select_zero, Ideal.ofBits_zero_f32]; rfl

end Cert.LibGateFunctions

end
-- ==== Proof.CellSpec.lean ====
/-
  One entry of the continuous-time LSTM cell, over the extended reals.

  A batch row has 512 inputs xr and 512 hidden values hr. The two weight matrices wx, wh are stored [out, in] with
  3584 = 7 · 512 output lanes, and bx, bh are the bias rows. The pre-activation of output lane e is

      gate e = (∑ₖ xr k · wx e k + bx e) + (∑ₖ hr k · wh e k + bh e).

  The seven groups of 512 lanes are, in order: input gate i, forget gate f, candidate z, output gate o, decay
  pre-activation d, and the barred gates ī and f̄. With σ the logistic function and ct the previous cell value,

      c = σ f · ct + σ i · tanh z,   h = σ o · tanh c,   c̄ = σ f̄ · ct + σ ī · tanh z,   o = σ o,   decay = softplus d,

  where softplus w = max w 0 + log (1 + exp (−|w − 0|)) and |a| = max a (−a) (the form log-add-exp of w and 0 takes).
  Every entry of every output depends on ONE batch row of x and ht, one entry of ct, and the weights and biases, so the
  cell is stated for one row and the whole arrays are its values row by row.

  That a program's written-out quotient is σ, and that a guarded log-add-exp is softplus, are facts about those two scalar
  functions alone and are proved apart from this cell.
-/
import proofs.«106204_j90065464197524_2_alg».proof.Proof.LibGateFunctions
import Idealize.ShloMosaic.Lib.ValueIdx
import Idealize.ShloMosaic.PureOps.Ideal.Laws

noncomputable section

open scoped BigOperators

namespace Cert.Cell

open Idealize.ShloMosaic Idealize.ShloMosaic.ValueIdx

/-! ## The seven lane groups -/

/-- Lane j of the input gate's group (lanes 0 … 511). -/
def laneI (j : Fin 512) : Fin 3584 := ⟨j.val, by have := j.isLt; omega⟩
/-- Lane j of the forget gate's group (lanes 512 … 1023). -/
def laneF (j : Fin 512) : Fin 3584 := ⟨j.val + 512, by have := j.isLt; omega⟩
/-- Lane j of the candidate's group (lanes 1024 … 1535). -/
def laneZ (j : Fin 512) : Fin 3584 := ⟨j.val + 1024, by have := j.isLt; omega⟩
/-- Lane j of the output gate's group (lanes 1536 … 2047). -/
def laneO (j : Fin 512) : Fin 3584 := ⟨j.val + 1536, by have := j.isLt; omega⟩
/-- Lane j of the decay pre-activation's group (lanes 2048 … 2559). -/
def laneD (j : Fin 512) : Fin 3584 := ⟨j.val + 2048, by have := j.isLt; omega⟩
/-- Lane j of the barred input gate's group (lanes 2560 … 3071). -/
def laneIb (j : Fin 512) : Fin 3584 := ⟨j.val + 2560, by have := j.isLt; omega⟩
/-- Lane j of the barred forget gate's group (lanes 3072 … 3583). -/
def laneFb (j : Fin 512) : Fin 3584 := ⟨j.val + 3072, by have := j.isLt; omega⟩

/-! ## One row's pre-activations and the five outputs -/

/-- The pre-activation of output lane e for one batch row: both affine maps, summed. -/
def gate (xr hr : Fin 512 → EReal) (wx wh : Fin 3584 → Fin 512 → EReal) (bx bh : Fin 3584 → EReal) (e : Fin 3584) : EReal :=
  ((∑ k : Fin 512, xr k * wx e k) + bx e) + ((∑ k : Fin 512, hr k * wh e k) + bh e)

/-- The new cell value at lane j from the row's pre-activations a and the previous cell value ct. -/
def cellC (a : Fin 3584 → EReal) (ct : EReal) (j : Fin 512) : EReal :=
  Ideal.logistic (a (laneF j)) * ct + Ideal.logistic (a (laneI j)) * Ideal.tanh (a (laneZ j))

/-- The new hidden value at lane j. -/
def cellH (a : Fin 3584 → EReal) (ct : EReal) (j : Fin 512) : EReal :=
  Ideal.logistic (a (laneO j)) * Ideal.tanh (cellC a ct j)

/-- The cell's target value at lane j (the barred gates in place of the plain ones). -/
def cellCbar (a : Fin 3584 → EReal) (ct : EReal) (j : Fin 512) : EReal :=
  Ideal.logistic (a (laneFb j)) * ct + Ideal.logistic (a (laneIb j)) * Ideal.tanh (a (laneZ j))

/-- The output gate at lane j. -/
def cellO (a : Fin 3584 → EReal) (j : Fin 512) : EReal := Ideal.logistic (a (laneO j))

/-- The decay rate at lane j. -/
def cellDecay (a : Fin 3584 → EReal) (j : Fin 512) : EReal := Cert.LibGateFunctions.softplus (a (laneD j))

/-! ## The whole arrays, row by row -/

/-- An a × b array of extended reals. -/
abbrev Mat (a b : ℕ) : Type := (⟨2, ![a, b]⟩ : Shape).Idx → EReal
/-- A vector of a extended reals. -/
abbrev Row (a : ℕ) : Type := (⟨1, ![a]⟩ : Shape).Idx → EReal

/-- Batch row r's pre-activations from the whole argument arrays. -/
def gateAt (X HT : Mat 16384 512) (WX : Mat 3584 512) (BX : Row 3584) (WH : Mat 3584 512) (BH : Row 3584) (r : Fin 16384) :
    Fin 3584 → EReal :=
  gate (fun k => X (ix2 r k)) (fun k => HT (ix2 r k)) (fun e k => WX (ix2 e k)) (fun e k => WH (ix2 e k))
    (fun e => BX (ix1 e)) (fun e => BH (ix1 e))

/-- The hidden values h, entry by entry. -/
def outH (X HT CT : Mat 16384 512) (WX : Mat 3584 512) (BX : Row 3584) (WH : Mat 3584 512) (BH : Row 3584) : Mat 16384 512 :=
  fun i => cellH (gateAt X HT WX BX WH BH (i 0)) (CT i) (i 1)
/-- The cell values c, entry by entry. -/
def outC (X HT CT : Mat 16384 512) (WX : Mat 3584 512) (BX : Row 3584) (WH : Mat 3584 512) (BH : Row 3584) : Mat 16384 512 :=
  fun i => cellC (gateAt X HT WX BX WH BH (i 0)) (CT i) (i 1)
/-- The target values c̄, entry by entry. -/
def outCbar (X HT CT : Mat 16384 512) (WX : Mat 3584 512) (BX : Row 3584) (WH : Mat 3584 512) (BH : Row 3584) : Mat 16384 512 :=
  fun i => cellCbar (gateAt X HT WX BX WH BH (i 0)) (CT i) (i 1)
/-- The output gates o, entry by entry. -/
def outO (X HT : Mat 16384 512) (WX : Mat 3584 512) (BX : Row 3584) (WH : Mat 3584 512) (BH : Row 3584) : Mat 16384 512 :=
  fun i => cellO (gateAt X HT WX BX WH BH (i 0)) (i 1)
/-- The decay rates, entry by entry. -/
def outDecay (X HT : Mat 16384 512) (WX : Mat 3584 512) (BX : Row 3584) (WH : Mat 3584 512) (BH : Row 3584) : Mat 16384 512 :=
  fun i => cellDecay (gateAt X HT WX BX WH BH (i 0)) (i 1)

end Cert.Cell

end
-- ==== Proof.KernelGate.lean ====
/-
  The kernel's pre-activation block, read at an index.

  Inside one grid step the kernel holds a 512-row block of x and of ht, both weight matrices whole ([3584, 512], stored
  [out, in]) and both biases as [1, 3584] rows. It forms

      (x · wxᵀ + bx) + (ht · whᵀ + bh)

  as one [512, 3584] value: each product contracts the second axis of both operands into a zero accumulator, and each
  bias row is broadcast down the 512 rows. At row p and lane e this is the row pre-activation gate of CellSpec: the
  products are the finite sums ∑ₖ x (p, k) · wx (e, k) and ∑ₖ ht (p, k) · wh (e, k) (the precision a product is asked to
  run at plays no part over the extended reals), and a broadcast row reads its one row at lane e.
-/
import proofs.«106204_j90065464197524_2_alg».proof.Proof.Gen.KernelIdeal.Skeleton
import proofs.«106204_j90065464197524_2_alg».proof.Proof.LibTransDot
import proofs.«106204_j90065464197524_2_alg».proof.Proof.CellSpec
import Idealize.ShloMosaic.Lib.ValueLayout
import Idealize.ShloMosaic.Lib.Pipeline.Value

noncomputable section

open scoped BigOperators

namespace Cert.KernelIdeal.Gate

open Cert.KernelIdeal Cert.KernelIdeal.Gen Idealize.ShloMosaic Idealize.ShloMosaic.ValueIdx

/-- The dimension record of both products: [512, 512] against [3584, 512], second axes contracted. -/
abbrev D : DotDims S512x512 S3584x512 S512x3584 := dot_S512x512_S3584x512_S512x3584_1_1_0_0_n_n

/-- The left operand is read at the output's row … -/
theorem lhs_row (i : S512x3584.Idx) (q : D.contr.Idx) : (D.lhsIdx i q 0).val = (i 0).val := by
  unfold DotDims.lhsIdx
  rw [dif_neg (show ¬(0 : Fin S512x512.rank) ∈ D.lhsBatch by decide),
    dif_pos (show (0 : Fin S512x512.rank) ∈ D.lhsNonContracting by decide)]
  rfl
/-- … and the contracted coordinate; … -/
theorem lhs_contr (i : S512x3584.Idx) (q : D.contr.Idx) : (D.lhsIdx i q 1).val = (q ⟨0, by decide⟩).val :=
  D.lhsIdx_val_of_single rfl i q
/-- … the right operand at the output's lane … -/
theorem rhs_row (i : S512x3584.Idx) (q : D.contr.Idx) : (D.rhsIdx i q 0).val = (i 1).val := by
  unfold DotDims.rhsIdx
  rw [dif_neg (show ¬(0 : Fin S3584x512.rank) ∈ D.rhsBatch by decide),
    dif_pos (show (0 : Fin S3584x512.rank) ∈ D.rhsNonContracting by decide)]
  rfl
/-- … and the contracted coordinate. -/
theorem rhs_contr (i : S512x3584.Idx) (q : D.contr.Idx) : (D.rhsIdx i q 1).val = (q ⟨0, by decide⟩).val :=
  D.rhsIdx_val_of_single rfl i q

/-- One product into the zero accumulator at (p, e): row p of the block against row e of the weights. The requested
    precision does not enter the extended reals' product. -/
theorem product_apply (prec : Option ContractPrecision) (A : FVec Ideal S512x512 .f32) (W : FVec Ideal S3584x512 .f32)
    (p : Fin 512) (e : Fin 3584) :
    matmul D prec A W (constant (F := Ideal) S512x3584 .f32 0x00000000#32) (ix2 p e)
      = ∑ k : Fin 512, A (ix2 p k) * W (ix2 e k) :=
  Cert.LibTransDot.matmul_zero_apply D rfl rfl lhs_row lhs_contr rhs_row rhs_contr A W p e

/-- A bias row, cast to its own shape and broadcast down the rows, at (p, e) is the row's entry at lane e. -/
theorem bias_apply (b : FVec Ideal S1x3584 .f32) (p : Fin 512) (e : Fin 3584) :
    broadcastTo S512x3584 (shapeCast S1x3584 b shapeCasts_S1x3584_S1x3584) broadcasts_S1x3584_S512x3584 (ix2 p e)
      = b (ix2 (0 : Fin 1) e) := by
  rw [shapeCast_self]
  exact broadcastTo_1b_ab_apply b broadcasts_S1x3584_S512x3584 p e

/-- THE PRE-ACTIVATION BLOCK at row p, lane e is the row pre-activation of row p of the two blocks. -/
theorem pay2_apply (P0 P1 : Vec Ideal S512x512 .f32) (P2 : Vec Ideal S3584x512 .f32) (P3 : Vec Ideal S1x3584 .f32)
    (P4 : Vec Ideal S3584x512 .f32) (P5 : Vec Ideal S1x3584 .f32) (p : Fin 512) (e : Fin 3584) :
    k0_pay2 (F := Ideal) P0 P1 P2 P3 P4 P5 (ix2 p e)
      = Cert.Cell.gate (fun k => P0 (ix2 p k)) (fun k => P1 (ix2 p k)) (fun e k => P2 (ix2 e k)) (fun e k => P4 (ix2 e k))
          (fun e => P3 (ix2 (0 : Fin 1) e)) (fun e => P5 (ix2 (0 : Fin 1) e)) e := by
  show (matmul D (some .fp32) P0 P2 (constant (F := Ideal) S512x3584 .f32 0x00000000#32) (ix2 p e)
        + broadcastTo S512x3584 (shapeCast S1x3584 P3 shapeCasts_S1x3584_S1x3584) broadcasts_S1x3584_S512x3584 (ix2 p e))
      + (matmul D (some .fp32) P1 P4 (constant (F := Ideal) S512x3584 .f32 0x00000000#32) (ix2 p e)
        + broadcastTo S512x3584 (shapeCast S1x3584 P5 shapeCasts_S1x3584_S1x3584) broadcasts_S1x3584_S512x3584 (ix2 p e)) = _
  rw [product_apply, product_apply, bias_apply, bias_apply]
  rfl

end Cert.KernelIdeal.Gate

end
-- ==== Proof.KernelCells.lean ====
/-
  What one grid step leaves in each output block, entry by entry.

  The step's five stores are functions of the blocks it loaded: 512 rows of x, ht and ct, both weight matrices and both
  bias rows. Four of them (h, c, c̄, o) are given as one function of the block index by the generated value module, over the
  pre-activation block read at lanes shifted by the gate's group offset; the fifth (the decay rate) is the guarded softplus
  of the pre-activation block's lanes 2048 … 2559 and is read here from the step's payload directly. In each case the entry
  at row p, lane q is the corresponding cell function of row p's pre-activations (and of ct at (p, q)): a shifted lane index
  is the named lane of q, the pre-activation block at (p, e) is the row pre-activation at e, and the guarded softplus is
  softplus.
-/
import proofs.«106204_j90065464197524_2_alg».proof.Proof.Gen.KernelIdeal.Value
import proofs.«106204_j90065464197524_2_alg».proof.Proof.KernelGate

noncomputable section

open scoped BigOperators

namespace Cert.KernelIdeal.Cells

open Cert.KernelIdeal Cert.KernelIdeal.Gen Idealize.ShloMosaic Idealize.ShloMosaic.ValueIdx
open Cert.Cell (laneI laneF laneZ laneO laneD laneIb laneFb)

/-- Row p's pre-activations from the loaded blocks: x and ht blocks P0, P1, weights P2, P4, bias rows P3, P5. -/
def blockGate (P0 P1 : Vec Ideal S512x512 .f32) (P2 : Vec Ideal S3584x512 .f32) (P3 : Vec Ideal S1x3584 .f32)
    (P4 : Vec Ideal S3584x512 .f32) (P5 : Vec Ideal S1x3584 .f32) (p : Fin 512) : Fin 3584 → EReal :=
  Cert.Cell.gate (fun k => P0 (ix2 p k)) (fun k => P1 (ix2 p k)) (fun e k => P2 (ix2 e k)) (fun e k => P4 (ix2 e k))
    (fun e => P3 (ix2 (0 : Fin 1) e)) (fun e => P5 (ix2 (0 : Fin 1) e))

/-- The pre-activation block at (p, e) is row p's pre-activation at lane e. -/
theorem pay2_blockGate (P0 P1 : Vec Ideal S512x512 .f32) (P2 : Vec Ideal S3584x512 .f32) (P3 : Vec Ideal S1x3584 .f32)
    (P4 : Vec Ideal S3584x512 .f32) (P5 : Vec Ideal S1x3584 .f32) (p : Fin 512) (e : Fin 3584) :
    k0_pay2 (F := Ideal) P0 P1 P2 P3 P4 P5 (ix2 p e) = blockGate P0 P1 P2 P3 P4 P5 p e :=
  Cert.KernelIdeal.Gate.pay2_apply P0 P1 P2 P3 P4 P5 p e

variable (P0 P1 : Vec Ideal S512x512 .f32) (P2 : Vec Ideal S3584x512 .f32) (P3 : Vec Ideal S1x3584 .f32)
  (P4 : Vec Ideal S3584x512 .f32) (P5 : Vec Ideal S1x3584 .f32) (P6 : Vec Ideal S512x512 .f32) (p q : Fin 512)

/-! ## The hidden value h (output window 7) -/

theorem E7_apply :
    Value.E7 (F := Ideal) P0 P1 P2 P3 P4 P5 P6 (ix2 p q) = Cert.Cell.cellH (blockGate P0 P1 P2 P3 P4 P5 p) (P6 (ix2 p q)) q := by
  have e0 : Value.ix7_0 (ix2 p q) = ix2 p (laneO q) := funext fun a => by match a with | ⟨0, _⟩ => rfl | ⟨1, _⟩ => rfl
  have e1 : Value.ix7_1 (ix2 p q) = ix2 p (laneF q) := funext fun a => by match a with | ⟨0, _⟩ => rfl | ⟨1, _⟩ => rfl
  have e2 : Value.ix7_2 (ix2 p q) = ix2 p q := funext fun a => by match a with | ⟨0, _⟩ => rfl | ⟨1, _⟩ => rfl
  have e3 : Value.ix7_3 (ix2 p q) = ix2 p (laneI q) := funext fun a => by match a with | ⟨0, _⟩ => rfl | ⟨1, _⟩ => rfl
  have e4 : Value.ix7_4 (ix2 p q) = ix2 p (laneZ q) := funext fun a => by match a with | ⟨0, _⟩ => rfl | ⟨1, _⟩ => rfl
  show Ideal.logistic (k0_pay2 (F := Ideal) P0 P1 P2 P3 P4 P5 (Value.ix7_0 (ix2 p q)))
      * Ideal.tanh (Ideal.logistic (k0_pay2 (F := Ideal) P0 P1 P2 P3 P4 P5 (Value.ix7_1 (ix2 p q))) * P6 (Value.ix7_2 (ix2 p q))
        + Ideal.logistic (k0_pay2 (F := Ideal) P0 P1 P2 P3 P4 P5 (Value.ix7_3 (ix2 p q)))
          * Ideal.tanh (k0_pay2 (F := Ideal) P0 P1 P2 P3 P4 P5 (Value.ix7_4 (ix2 p q)))) = _
  rw [e0, e1, e2, e3, e4]
  simp only [pay2_blockGate]
  rfl

/-! ## The cell value c (output window 8) -/

theorem E8_apply :
    Value.E8 (F := Ideal) P0 P1 P2 P3 P4 P5 P6 (ix2 p q) = Cert.Cell.cellC (blockGate P0 P1 P2 P3 P4 P5 p) (P6 (ix2 p q)) q := by
  have e0 : Value.ix8_0 (ix2 p q) = ix2 p (laneF q) := funext fun a => by match a with | ⟨0, _⟩ => rfl | ⟨1, _⟩ => rfl
  have e1 : Value.ix8_1 (ix2 p q) = ix2 p q := funext fun a => by match a with | ⟨0, _⟩ => rfl | ⟨1, _⟩ => rfl
  have e2 : Value.ix8_2 (ix2 p q) = ix2 p (laneI q) := funext fun a => by match a with | ⟨0, _⟩ => rfl | ⟨1, _⟩ => rfl
  have e3 : Value.ix8_3 (ix2 p q) = ix2 p (laneZ q) := funext fun a => by match a with | ⟨0, _⟩ => rfl | ⟨1, _⟩ => rfl
  show Ideal.logistic (k0_pay2 (F := Ideal) P0 P1 P2 P3 P4 P5 (Value.ix8_0 (ix2 p q))) * P6 (Value.ix8_1 (ix2 p q))
      + Ideal.logistic (k0_pay2 (F := Ideal) P0 P1 P2 P3 P4 P5 (Value.ix8_2 (ix2 p q)))
        * Ideal.tanh (k0_pay2 (F := Ideal) P0 P1 P2 P3 P4 P5 (Value.ix8_3 (ix2 p q))) = _
  rw [e0, e1, e2, e3]
  simp only [pay2_blockGate]
  rfl

/-! ## The target value c̄ (output window 9) -/

theorem E9_apply :
    Value.E9 (F := Ideal) P0 P1 P2 P3 P4 P5 P6 (ix2 p q) = Cert.Cell.cellCbar (blockGate P0 P1 P2 P3 P4 P5 p) (P6 (ix2 p q)) q := by
  have e0 : Value.ix9_0 (ix2 p q) = ix2 p (laneFb q) := funext fun a => by match a with | ⟨0, _⟩ => rfl | ⟨1, _⟩ => rfl
  have e1 : Value.ix9_1 (ix2 p q) = ix2 p q := funext fun a => by match a with | ⟨0, _⟩ => rfl | ⟨1, _⟩ => rfl
  have e2 : Value.ix9_2 (ix2 p q) = ix2 p (laneIb q) := funext fun a => by match a with | ⟨0, _⟩ => rfl | ⟨1, _⟩ => rfl
  have e3 : Value.ix9_3 (ix2 p q) = ix2 p (laneZ q) := funext fun a => by match a with | ⟨0, _⟩ => rfl | ⟨1, _⟩ => rfl
  show Ideal.logistic (k0_pay2 (F := Ideal) P0 P1 P2 P3 P4 P5 (Value.ix9_0 (ix2 p q))) * P6 (Value.ix9_1 (ix2 p q))
      + Ideal.logistic (k0_pay2 (F := Ideal) P0 P1 P2 P3 P4 P5 (Value.ix9_2 (ix2 p q)))
        * Ideal.tanh (k0_pay2 (F := Ideal) P0 P1 P2 P3 P4 P5 (Value.ix9_3 (ix2 p q))) = _
  rw [e0, e1, e2, e3]
  simp only [pay2_blockGate]
  rfl

/-! ## The output gate o (output window 10) -/

theorem E10_apply :
    Value.E10 (F := Ideal) P0 P1 P2 P3 P4 P5 (ix2 p q) = Cert.Cell.cellO (blockGate P0 P1 P2 P3 P4 P5 p) q := by
  have e0 : Value.ix10_0 (ix2 p q) = ix2 p (laneO q) := funext fun a => by match a with | ⟨0, _⟩ => rfl | ⟨1, _⟩ => rfl
  show Ideal.logistic (k0_pay2 (F := Ideal) P0 P1 P2 P3 P4 P5 (Value.ix10_0 (ix2 p q))) = _
  rw [e0, pay2_blockGate]
  rfl

/-! ## The decay rate (output window 11) -/

/-- The decay group's slice of the pre-activation block at (p, q) is row p's pre-activation at the decay lane of q. -/
theorem pay3_apply : k0_pay3 (F := Ideal) P0 P1 P2 P3 P4 P5 (ix2 p q) = blockGate P0 P1 P2 P3 P4 P5 p (laneD q) :=
  (slice2_axis1_apply 2048 (k0_pay2 (F := Ideal) P0 P1 P2 P3 P4 P5) slices_S512x3584_o0_2048_S512x512 p q (laneD q)
    (Nat.add_comm _ _)).trans (pay2_blockGate P0 P1 P2 P3 P4 P5 p (laneD q))

/-- The step's stored decay value at (p, q): the guard "d − 0 differs from itself" never holds, so the store is softplus of
    the decay pre-activation. -/
theorem pay1_apply :
    k0_pay1 (F := Ideal) (k0_pay3 P0 P1 P2 P3 P4 P5) (Scalar.ofBits .f32 0x00000000#32) (k0_pay9 P0 P1 P2 P3 P4 P5)
        (k0_pay10 P0 P1 P2 P3 P4 P5) (k0_pay11 P0 P1 P2 P3 P4 P5) (ix2 p q)
      = Cert.Cell.cellDecay (blockGate P0 P1 P2 P3 P4 P5 p) q := by
  have hw := pay3_apply P0 P1 P2 P3 P4 P5 p q
  show Scalar.select
        (Ideal.cmp .one (k0_pay3 (F := Ideal) P0 P1 P2 P3 P4 P5 (ix2 p q) - Ideal.ofBits .f32 0x00000000#32)
          (k0_pay3 (F := Ideal) P0 P1 P2 P3 P4 P5 (ix2 p q) - Ideal.ofBits .f32 0x00000000#32))
        (k0_pay3 (F := Ideal) P0 P1 P2 P3 P4 P5 (ix2 p q) + Ideal.ofBits .f32 0x00000000#32)
        (max (k0_pay3 (F := Ideal) P0 P1 P2 P3 P4 P5 (ix2 p q)) (Ideal.ofBits .f32 0x00000000#32)
          + Ideal.log1p (Ideal.exp (Ideal.ofBits .f32 0x00000000#32
              - max (k0_pay3 (F := Ideal) P0 P1 P2 P3 P4 P5 (ix2 p q) - Ideal.ofBits .f32 0x00000000#32)
                  (-(k0_pay3 (F := Ideal) P0 P1 P2 P3 P4 P5 (ix2 p q) - Ideal.ofBits .f32 0x00000000#32))))) = _
  rw [hw]
  exact Cert.LibGateFunctions.softplus_guard_sub _

/-! ## The same five facts at an arbitrary block index y: row y 0, lane y 1 -/

theorem E7_at (y : S512x512.Idx) :
    Value.E7 (F := Ideal) P0 P1 P2 P3 P4 P5 P6 y = Cert.Cell.cellH (blockGate P0 P1 P2 P3 P4 P5 (y 0)) (P6 y) (y 1) := by
  obtain ⟨p, q, rfl⟩ : ∃ (p q : Fin 512), y = ix2 p q := ⟨y 0, y 1, eq_ix2 y⟩
  exact E7_apply P0 P1 P2 P3 P4 P5 P6 p q
theorem E8_at (y : S512x512.Idx) :
    Value.E8 (F := Ideal) P0 P1 P2 P3 P4 P5 P6 y = Cert.Cell.cellC (blockGate P0 P1 P2 P3 P4 P5 (y 0)) (P6 y) (y 1) := by
  obtain ⟨p, q, rfl⟩ : ∃ (p q : Fin 512), y = ix2 p q := ⟨y 0, y 1, eq_ix2 y⟩
  exact E8_apply P0 P1 P2 P3 P4 P5 P6 p q
theorem E9_at (y : S512x512.Idx) :
    Value.E9 (F := Ideal) P0 P1 P2 P3 P4 P5 P6 y = Cert.Cell.cellCbar (blockGate P0 P1 P2 P3 P4 P5 (y 0)) (P6 y) (y 1) := by
  obtain ⟨p, q, rfl⟩ : ∃ (p q : Fin 512), y = ix2 p q := ⟨y 0, y 1, eq_ix2 y⟩
  exact E9_apply P0 P1 P2 P3 P4 P5 P6 p q
theorem E10_at (y : S512x512.Idx) :
    Value.E10 (F := Ideal) P0 P1 P2 P3 P4 P5 y = Cert.Cell.cellO (blockGate P0 P1 P2 P3 P4 P5 (y 0)) (y 1) := by
  obtain ⟨p, q, rfl⟩ : ∃ (p q : Fin 512), y = ix2 p q := ⟨y 0, y 1, eq_ix2 y⟩
  exact E10_apply P0 P1 P2 P3 P4 P5 p q
theorem pay1_at (y : S512x512.Idx) :
    k0_pay1 (F := Ideal) (k0_pay3 P0 P1 P2 P3 P4 P5) (Scalar.ofBits .f32 0x00000000#32) (k0_pay9 P0 P1 P2 P3 P4 P5)
        (k0_pay10 P0 P1 P2 P3 P4 P5) (k0_pay11 P0 P1 P2 P3 P4 P5) y
      = Cert.Cell.cellDecay (blockGate P0 P1 P2 P3 P4 P5 (y 0)) (y 1) := by
  obtain ⟨p, q, rfl⟩ : ∃ (p q : Fin 512), y = ix2 p q := ⟨y 0, y 1, eq_ix2 y⟩
  exact pay1_apply P0 P1 P2 P3 P4 P5 p q

end Cert.KernelIdeal.Cells

end
-- ==== Proof.KernelArrays.lean ====
/-
  From the grid steps' blocks to the five output arrays.

  The grid has 32 steps. At step t the kernel is handed rows 512·t … 512·t + 511 of x, ht and ct, the two weight matrices
  whole, and the two bias rows whole (the biases reach it as [1, 3584] arrays: a cast of the [3584] vectors made before the
  call, which reads the vector at the same lane). It writes rows 512·t … 512·t + 511 of each of the five outputs. Every
  output entry depends only on its own batch row, so what step t writes is exactly block t of the specification's
  whole-array function: row p of a loaded block is row 512·t + p of the array, the weights and biases are read where they
  are, and lane q of the block is lane q of the array. The 32 blocks tile the 16384 rows (row r belongs to step r / 512),
  so each output array ends as the specification's function of the argument arrays.
-/
import proofs.«106204_j90065464197524_2_alg».proof.Proof.Gen.KernelIdeal.Value
import proofs.«106204_j90065464197524_2_alg».proof.Proof.KernelCells
import Idealize.ShloMosaic.Lib.StableHlo.Run
import Idealize.ShloMosaic.Lib.ValueLayout

noncomputable section

open scoped BigOperators

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The argument arrays, as the specification's types -/

/-- x. -/
abbrev aX (c : Dev nD) : Cert.Cell.Mat 16384 512 := m ((c : Thread nD τ).loc main_arg0)
/-- ht. -/
abbrev aHT (c : Dev nD) : Cert.Cell.Mat 16384 512 := m ((c : Thread nD τ).loc main_arg1)
/-- ct. -/
abbrev aCT (c : Dev nD) : Cert.Cell.Mat 16384 512 := m ((c : Thread nD τ).loc main_arg2)
/-- Wx. -/
abbrev aWX (c : Dev nD) : Cert.Cell.Mat 3584 512 := m ((c : Thread nD τ).loc main_arg3)
/-- bx. -/
abbrev aBX (c : Dev nD) : Cert.Cell.Row 3584 := m ((c : Thread nD τ).loc main_arg4)
/-- Wh. -/
abbrev aWH (c : Dev nD) : Cert.Cell.Mat 3584 512 := m ((c : Thread nD τ).loc main_arg5)
/-- bh. -/
abbrev aBH (c : Dev nD) : Cert.Cell.Row 3584 := m ((c : Thread nD τ).loc main_arg6)

/-! ## Small tools -/

theorem hz : (![0, 0] : Fin 2 → Nat) = fun _ => 0 := funext fun a => by fin_cases a <;> rfl

theorem congr2 {α β δ : Type} (f : α → β → δ) {a a' : α} {b b' : β} (ha : a = a') (hb : b = b') : f a b = f a' b' := by
  subst ha hb; rfl
theorem congr3 {α β γ δ : Type} (f : α → β → γ → δ) {a a' : α} {b b' : β} {c c' : γ} (ha : a = a') (hb : b = b')
    (hc : c = c') : f a b c = f a' b' c' := by
  subst ha hb hc; rfl

/-- Equal rows, weights and biases give equal pre-activations. -/
theorem gate_congr {xr xr' hr hr' : Fin 512 → EReal} {wx wx' wh wh' : Fin 3584 → Fin 512 → EReal} {bx bx' bh bh' : Fin 3584 → EReal}
    (h1 : xr = xr') (h2 : hr = hr') (h3 : wx = wx') (h4 : wh = wh') (h5 : bx = bx') (h6 : bh = bh') :
    Cert.Cell.gate xr hr wx wh bx bh = Cert.Cell.gate xr' hr' wx' wh' bx' bh' := by
  subst h1 h2 h3 h4 h5 h6; rfl

/-! ## The input windows' index maps, decided once over the grid -/

/-- x, ht and ct move with the grid step along the rows; the weights and the bias rows stay at block (0, 0). -/
theorem idx_in : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The bias rows the kernel is handed are the bias vectors, lane by lane -/

theorem V_bx (c : Dev nD) : (V m c main_v0 : S1x3584.Idx → EReal)
    = shapeCast S1x3584 (m ((c : Thread nD τ).loc main_arg4)) shapeCasts_S3584_S1x3584 := by
  dsimp only [Gen.V, Gen.hostOps0]; after_results; rfl
theorem V_bh (c : Dev nD) : (V m c main_v1 : S1x3584.Idx → EReal)
    = shapeCast S1x3584 (m ((c : Thread nD τ).loc main_arg6)) shapeCasts_S3584_S1x3584 := by
  dsimp only [Gen.V, Gen.hostOps0]; after_results; rfl

/-! ## Each input block, read where it sits in its array -/

theorem read_x (c : Dev nD) (t : Fin cfg0.N) (p k : Fin 512) (r : Fin 16384) (hr : r.val = t.val * 512 + p.val) :
    iblk m c 0 t (ix2 p k) = aX m c (ix2 r k) := by
  obtain ⟨e0, e1, -⟩ := idx_in t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = r.val; omega
  | ⟨1, _⟩ => show win0_0.index t (1 : Fin 2) * 512 + 1 * k.val = k.val; omega

theorem read_ht (c : Dev nD) (t : Fin cfg0.N) (p k : Fin 512) (r : Fin 16384) (hr : r.val = t.val * 512 + p.val) :
    iblk m c 1 t (ix2 p k) = aHT m c (ix2 r k) := by
  obtain ⟨-, -, e0, e1, -⟩ := idx_in t
  show V m c main_arg1 (((cfg0.win 1).blk t).view.emb (ix2 p k)) = _
  rw [V_main_arg1]
  refine congrArg _ (funext fun a => Fin.ext ?_)
  match a with
  | ⟨0, _⟩ => show win0_1.index t (0 : Fin 2) * 512 + 1 * p.val = r.val; omega
  | ⟨1, _⟩ => show win0_1.index t (1 : Fin 2) * 512 + 1 * k.val = k.val; omega

/-- ct's block at y is ct at the array index i under y. -/
theorem read_ct (c : Dev nD) (t : Fin cfg0.N) (y : S512x512.Idx) (i : S16384x512.Idx)
    (h0 : (i 0).val = t.val * 512 + (y 0).val) (h1 : (i 1).val = (y 1).val) : iblk m c 2 t y = aCT m c i := by
  obtain ⟨-, -, -, -, e0, e1, -⟩ := idx_in t
  show V m c main_arg2 (((cfg0.win 2).blk t).view.emb y) = _
  rw [V_main_arg2]
  refine congrArg _ (funext fun a => Fin.ext ?_)
  match a with
  | ⟨0, _⟩ => show win0_2.index t (0 : Fin 2) * 512 + 1 * (y 0).val = (i 0).val; omega
  | ⟨1, _⟩ => show win0_2.index t (1 : Fin 2) * 512 + 1 * (y 1).val = (i 1).val; omega

theorem read_wx (c : Dev nD) (t : Fin cfg0.N) (e : Fin 3584) (k : Fin 512) : iblk m c 3 t (ix2 e k) = aWX m c (ix2 e k) := by
  obtain ⟨-, -, -, -, -, -, e0, e1, -⟩ := idx_in t
  show V m c main_arg3 (((cfg0.win 3).blk t).view.emb (ix2 e k)) = _
  rw [V_main_arg3]
  refine congrArg _ (funext fun a => Fin.ext ?_)
  match a with
  | ⟨0, _⟩ => show win0_3.index t (0 : Fin 2) * 3584 + 1 * e.val = e.val; omega
  | ⟨1, _⟩ => show win0_3.index t (1 : Fin 2) * 512 + 1 * k.val = k.val; omega

theorem read_wh (c : Dev nD) (t : Fin cfg0.N) (e : Fin 3584) (k : Fin 512) : iblk m c 4 t (ix2 e k) = aWH m c (ix2 e k) := by
  obtain ⟨-, -, -, -, -, -, -, -, e0, e1, -⟩ := idx_in t
  show V m c main_arg5 (((cfg0.win 4).blk t).view.emb (ix2 e k)) = _
  rw [V_main_arg5]
  refine congrArg _ (funext fun a => Fin.ext ?_)
  match a with
  | ⟨0, _⟩ => show win0_4.index t (0 : Fin 2) * 3584 + 1 * e.val = e.val; omega
  | ⟨1, _⟩ => show win0_4.index t (1 : Fin 2) * 512 + 1 * k.val = k.val; omega

theorem read_bx (c : Dev nD) (t : Fin cfg0.N) (e : Fin 3584) : iblk m c 5 t (ix2 (0 : Fin 1) e) = aBX m c (ix1 e) := by
  obtain ⟨-, -, -, -, -, -, -, -, -, -, e0, e1, -⟩ := idx_in t
  have he : ((cfg0.win 5).blk t).view.emb (ix2 (0 : Fin 1) e) = ix2 (0 : Fin 1) e := funext fun a => Fin.ext (by
    match a with
    | ⟨0, _⟩ => show win0_5.index t (0 : Fin 2) * 1 + 1 * 0 = 0; omega
    | ⟨1, _⟩ => show win0_5.index t (1 : Fin 2) * 3584 + 1 * e.val = e.val; omega)
  show (V m c main_v0 : S1x3584.Idx → EReal) (((cfg0.win 5).blk t).view.emb (ix2 (0 : Fin 1) e)) = _
  rw [he, V_bx]
  exact shapeCast_a_1a_apply _ shapeCasts_S3584_S1x3584 0 e

theorem read_bh (c : Dev nD) (t : Fin cfg0.N) (e : Fin 3584) : iblk m c 6 t (ix2 (0 : Fin 1) e) = aBH m c (ix1 e) := by
  obtain ⟨-, -, -, -, -, -, -, -, -, -, -, -, e0, e1⟩ := idx_in t
  have he : ((cfg0.win 6).blk t).view.emb (ix2 (0 : Fin 1) e) = ix2 (0 : Fin 1) e := funext fun a => Fin.ext (by
    match a with
    | ⟨0, _⟩ => show win0_6.index t (0 : Fin 2) * 1 + 1 * 0 = 0; omega
    | ⟨1, _⟩ => show win0_6.index t (1 : Fin 2) * 3584 + 1 * e.val = e.val; omega)
  show (V m c main_v1 : S1x3584.Idx → EReal) (((cfg0.win 6).blk t).view.emb (ix2 (0 : Fin 1) e)) = _
  rw [he, V_bh]
  exact shapeCast_a_1a_apply _ shapeCasts_S3584_S1x3584 0 e

/-- Row p of step t's blocks has the pre-activations of row r = 512·t + p of the arrays. -/
theorem blockGate_eq (c : Dev nD) (t : Fin cfg0.N) (p : Fin 512) (r : Fin 16384) (hr : r.val = t.val * 512 + p.val) :
    Cells.blockGate (iblk m c 0 t) (iblk m c 1 t) (iblk m c 3 t) (iblk m c 5 t) (iblk m c 4 t) (iblk m c 6 t) p = Cert.Cell.gateAt (aX m c) (aHT m c) (aWX m c) (aBX m c) (aWH m c) (aBH m c) r :=
  gate_congr (funext fun k => read_x m c t p k r hr) (funext fun k => read_ht m c t p k r hr)
    (funext fun e => funext fun k => read_wx m c t e k) (funext fun e => funext fun k => read_wh m c t e k)
    (funext fun e => read_bx m c t e) (funext fun e => read_bh m c t e)

/-! ## The hidden values h (output window 7) -/

/-- The block's two index coordinates at grid step t: the step number, and 0. -/
theorem idx_out7 : ∀ t : Fin cfg0.N, win0_7.index t (0 : Fin 2) = t.val ∧ win0_7.index t (1 : Fin 2) = 0 :=
  (by decide +kernel : ∀ t : Fin grid0.N, _)

/-- What grid step t writes back is block t of the specification's array. -/
theorem flushed7_eq (c : Dev nD) (t : Fin cfg0.N) :
    (dats m 0 c).flushed 7 t = ((cfg0.win 7).blk t).view.read (Elt Ideal) (Cert.Cell.outH (aX m c) (aHT m c) (aCT m c) (aWX m c) (aBX m c) (aWH m c) (aBH m c)) := by
  rw [Value.flushed7]
  unfold out0_7
  simp only [View.ld_unit_zero (S := S512x512) hz, View.ld_unit_zero (S := S3584x512) hz, View.ld_unit_zero (S := S1x3584) hz]
  funext y
  obtain ⟨e0, e1⟩ := idx_out7 t
  have hr : (((cfg0.win 7).blk t).view.emb y (0 : Fin 2)).val = t.val * 512 + (y 0).val := by
    show win0_7.index t (0 : Fin 2) * 512 + 1 * (y 0).val = _; omega
  have hq : (((cfg0.win 7).blk t).view.emb y (1 : Fin 2)).val = (y 1).val := by
    show win0_7.index t (1 : Fin 2) * 512 + 1 * (y 1).val = _; omega
  refine (Value.canon7_eq (iblk m c 0 t) (iblk m c 1 t) (iblk m c 3 t) (iblk m c 5 t) (iblk m c 4 t) (iblk m c 6 t) (iblk m c 2 t) y).trans ?_
  refine (Cells.E7_at (iblk m c 0 t) (iblk m c 1 t) (iblk m c 3 t) (iblk m c 5 t) (iblk m c 4 t) (iblk m c 6 t) (iblk m c 2 t) y).trans ?_
  exact congr3 Cert.Cell.cellH (blockGate_eq m c t (y 0) _ hr) (read_ct m c t y _ hr hq) (Fin.ext hq.symm)

/-- An index of the array lies in step t's block iff each coordinate lies in the block's range on its axis. -/
theorem mem_blk7 (t : Fin cfg0.N) (i : S16384x512.Idx) :
    i ∈ ((cfg0.win 7).blk t).view.set ↔ ∀ a : Fin 2, win0_7.index t a * S512x512.size a ≤ (i a).val
      ∧ (i a).val < win0_7.index t a * S512x512.size a + S512x512.size a := by
  show i ∈ ((View.whole main_v2_0).slice (win0_7.rect t)).set ↔ _
  rw [View.set_slice_whole, Rect.mem_set_unit]
  exact Iff.rfl

/-- Row r of the array is written by step r / 512: the 32 blocks of 512 rows tile the 16384 rows. -/
theorem cover7 (i : S16384x512.Idx) :
    ∃ t : Fin cfg0.N, (cfg0.win 7).flush t = true ∧ i ∈ ((cfg0.win 7).blk t).view.set := by
  have hi0 : (i 0).val < 16384 := (i 0).isLt
  have hi1 : (i 1).val < 512 := (i 1).isLt
  have hN : grid0.N = 32 := N_0
  obtain ⟨t, ht⟩ : ∃ t : Fin cfg0.N, t.val = (i 0).val / 512 :=
    ⟨⟨(i 0).val / 512, by show (i 0).val / 512 < grid0.N; omega⟩, rfl⟩
  obtain ⟨e0, e1⟩ := idx_out7 t
  refine ⟨t, flush0_7 t, ?_⟩
  rw [mem_blk7]
  intro a
  match a with
  | ⟨0, _⟩ =>
    show win0_7.index t (0 : Fin 2) * 512 ≤ (i 0).val ∧ (i 0).val < win0_7.index t (0 : Fin 2) * 512 + 512; omega
  | ⟨1, _⟩ =>
    show win0_7.index t (1 : Fin 2) * 512 ≤ (i 1).val ∧ (i 1).val < win0_7.index t (1 : Fin 2) * 512 + 512; omega

/-- The array after the run is the specification's. -/
theorem final7 (c : Dev nD) : (dats m 0 c).arrAt 7 cfg0.N = Cert.Cell.outH (aX m c) (aHT m c) (aCT m c) (aWX m c) (aBX m c) (aWH m c) (aBH m c) :=
  (dats m 0 c).arrAt_eq_of_cover 7 _ (fun t _ => flushed7_eq m c t) (cover7)

/-! ## The cell values c (output window 8) -/

/-- The block's two index coordinates at grid step t: the step number, and 0. -/
theorem idx_out8 : ∀ t : Fin cfg0.N, win0_8.index t (0 : Fin 2) = t.val ∧ win0_8.index t (1 : Fin 2) = 0 :=
  (by decide +kernel : ∀ t : Fin grid0.N, _)

/-- What grid step t writes back is block t of the specification's array. -/
theorem flushed8_eq (c : Dev nD) (t : Fin cfg0.N) :
    (dats m 0 c).flushed 8 t = ((cfg0.win 8).blk t).view.read (Elt Ideal) (Cert.Cell.outC (aX m c) (aHT m c) (aCT m c) (aWX m c) (aBX m c) (aWH m c) (aBH m c)) := by
  rw [Value.flushed8]
  unfold out0_8
  simp only [View.ld_unit_zero (S := S512x512) hz, View.ld_unit_zero (S := S3584x512) hz, View.ld_unit_zero (S := S1x3584) hz]
  funext y
  obtain ⟨e0, e1⟩ := idx_out8 t
  have hr : (((cfg0.win 8).blk t).view.emb y (0 : Fin 2)).val = t.val * 512 + (y 0).val := by
    show win0_8.index t (0 : Fin 2) * 512 + 1 * (y 0).val = _; omega
  have hq : (((cfg0.win 8).blk t).view.emb y (1 : Fin 2)).val = (y 1).val := by
    show win0_8.index t (1 : Fin 2) * 512 + 1 * (y 1).val = _; omega
  refine (Value.canon8_eq (iblk m c 0 t) (iblk m c 1 t) (iblk m c 3 t) (iblk m c 5 t) (iblk m c 4 t) (iblk m c 6 t) (iblk m c 2 t) y).trans ?_
  refine (Cells.E8_at (iblk m c 0 t) (iblk m c 1 t) (iblk m c 3 t) (iblk m c 5 t) (iblk m c 4 t) (iblk m c 6 t) (iblk m c 2 t) y).trans ?_
  exact congr3 Cert.Cell.cellC (blockGate_eq m c t (y 0) _ hr) (read_ct m c t y _ hr hq) (Fin.ext hq.symm)

/-- An index of the array lies in step t's block iff each coordinate lies in the block's range on its axis. -/
theorem mem_blk8 (t : Fin cfg0.N) (i : S16384x512.Idx) :
    i ∈ ((cfg0.win 8).blk t).view.set ↔ ∀ a : Fin 2, win0_8.index t a * S512x512.size a ≤ (i a).val
      ∧ (i a).val < win0_8.index t a * S512x512.size a + S512x512.size a := by
  show i ∈ ((View.whole main_v2_1).slice (win0_8.rect t)).set ↔ _
  rw [View.set_slice_whole, Rect.mem_set_unit]
  exact Iff.rfl

/-- Row r of the array is written by step r / 512: the 32 blocks of 512 rows tile the 16384 rows. -/
theorem cover8 (i : S16384x512.Idx) :
    ∃ t : Fin cfg0.N, (cfg0.win 8).flush t = true ∧ i ∈ ((cfg0.win 8).blk t).view.set := by
  have hi0 : (i 0).val < 16384 := (i 0).isLt
  have hi1 : (i 1).val < 512 := (i 1).isLt
  have hN : grid0.N = 32 := N_0
  obtain ⟨t, ht⟩ : ∃ t : Fin cfg0.N, t.val = (i 0).val / 512 :=
    ⟨⟨(i 0).val / 512, by show (i 0).val / 512 < grid0.N; omega⟩, rfl⟩
  obtain ⟨e0, e1⟩ := idx_out8 t
  refine ⟨t, flush0_8 t, ?_⟩
  rw [mem_blk8]
  intro a
  match a with
  | ⟨0, _⟩ =>
    show win0_8.index t (0 : Fin 2) * 512 ≤ (i 0).val ∧ (i 0).val < win0_8.index t (0 : Fin 2) * 512 + 512; omega
  | ⟨1, _⟩ =>
    show win0_8.index t (1 : Fin 2) * 512 ≤ (i 1).val ∧ (i 1).val < win0_8.index t (1 : Fin 2) * 512 + 512; omega

/-- The array after the run is the specification's. -/
theorem final8 (c : Dev nD) : (dats m 0 c).arrAt 8 cfg0.N = Cert.Cell.outC (aX m c) (aHT m c) (aCT m c) (aWX m c) (aBX m c) (aWH m c) (aBH m c) :=
  (dats m 0 c).arrAt_eq_of_cover 8 _ (fun t _ => flushed8_eq m c t) (cover8)

/-! ## The target values c̄ (output window 9) -/

/-- The block's two index coordinates at grid step t: the step number, and 0. -/
theorem idx_out9 : ∀ t : Fin cfg0.N, win0_9.index t (0 : Fin 2) = t.val ∧ win0_9.index t (1 : Fin 2) = 0 :=
  (by decide +kernel : ∀ t : Fin grid0.N, _)

/-- What grid step t writes back is block t of the specification's array. -/
theorem flushed9_eq (c : Dev nD) (t : Fin cfg0.N) :
    (dats m 0 c).flushed 9 t = ((cfg0.win 9).blk t).view.read (Elt Ideal) (Cert.Cell.outCbar (aX m c) (aHT m c) (aCT m c) (aWX m c) (aBX m c) (aWH m c) (aBH m c)) := by
  rw [Value.flushed9]
  unfold out0_9
  simp only [View.ld_unit_zero (S := S512x512) hz, View.ld_unit_zero (S := S3584x512) hz, View.ld_unit_zero (S := S1x3584) hz]
  funext y
  obtain ⟨e0, e1⟩ := idx_out9 t
  have hr : (((cfg0.win 9).blk t).view.emb y (0 : Fin 2)).val = t.val * 512 + (y 0).val := by
    show win0_9.index t (0 : Fin 2) * 512 + 1 * (y 0).val = _; omega
  have hq : (((cfg0.win 9).blk t).view.emb y (1 : Fin 2)).val = (y 1).val := by
    show win0_9.index t (1 : Fin 2) * 512 + 1 * (y 1).val = _; omega
  refine (Value.canon9_eq (iblk m c 0 t) (iblk m c 1 t) (iblk m c 3 t) (iblk m c 5 t) (iblk m c 4 t) (iblk m c 6 t) (iblk m c 2 t) y).trans ?_
  refine (Cells.E9_at (iblk m c 0 t) (iblk m c 1 t) (iblk m c 3 t) (iblk m c 5 t) (iblk m c 4 t) (iblk m c 6 t) (iblk m c 2 t) y).trans ?_
  exact congr3 Cert.Cell.cellCbar (blockGate_eq m c t (y 0) _ hr) (read_ct m c t y _ hr hq) (Fin.ext hq.symm)

/-- An index of the array lies in step t's block iff each coordinate lies in the block's range on its axis. -/
theorem mem_blk9 (t : Fin cfg0.N) (i : S16384x512.Idx) :
    i ∈ ((cfg0.win 9).blk t).view.set ↔ ∀ a : Fin 2, win0_9.index t a * S512x512.size a ≤ (i a).val
      ∧ (i a).val < win0_9.index t a * S512x512.size a + S512x512.size a := by
  show i ∈ ((View.whole main_v2_2).slice (win0_9.rect t)).set ↔ _
  rw [View.set_slice_whole, Rect.mem_set_unit]
  exact Iff.rfl

/-- Row r of the array is written by step r / 512: the 32 blocks of 512 rows tile the 16384 rows. -/
theorem cover9 (i : S16384x512.Idx) :
    ∃ t : Fin cfg0.N, (cfg0.win 9).flush t = true ∧ i ∈ ((cfg0.win 9).blk t).view.set := by
  have hi0 : (i 0).val < 16384 := (i 0).isLt
  have hi1 : (i 1).val < 512 := (i 1).isLt
  have hN : grid0.N = 32 := N_0
  obtain ⟨t, ht⟩ : ∃ t : Fin cfg0.N, t.val = (i 0).val / 512 :=
    ⟨⟨(i 0).val / 512, by show (i 0).val / 512 < grid0.N; omega⟩, rfl⟩
  obtain ⟨e0, e1⟩ := idx_out9 t
  refine ⟨t, flush0_9 t, ?_⟩
  rw [mem_blk9]
  intro a
  match a with
  | ⟨0, _⟩ =>
    show win0_9.index t (0 : Fin 2) * 512 ≤ (i 0).val ∧ (i 0).val < win0_9.index t (0 : Fin 2) * 512 + 512; omega
  | ⟨1, _⟩ =>
    show win0_9.index t (1 : Fin 2) * 512 ≤ (i 1).val ∧ (i 1).val < win0_9.index t (1 : Fin 2) * 512 + 512; omega

/-- The array after the run is the specification's. -/
theorem final9 (c : Dev nD) : (dats m 0 c).arrAt 9 cfg0.N = Cert.Cell.outCbar (aX m c) (aHT m c) (aCT m c) (aWX m c) (aBX m c) (aWH m c) (aBH m c) :=
  (dats m 0 c).arrAt_eq_of_cover 9 _ (fun t _ => flushed9_eq m c t) (cover9)

/-! ## The output gates o (output window 10) -/

/-- The block's two index coordinates at grid step t: the step number, and 0. -/
theorem idx_out10 : ∀ t : Fin cfg0.N, win0_10.index t (0 : Fin 2) = t.val ∧ win0_10.index t (1 : Fin 2) = 0 :=
  (by decide +kernel : ∀ t : Fin grid0.N, _)

/-- What grid step t writes back is block t of the specification's array. -/
theorem flushed10_eq (c : Dev nD) (t : Fin cfg0.N) :
    (dats m 0 c).flushed 10 t = ((cfg0.win 10).blk t).view.read (Elt Ideal) (Cert.Cell.outO (aX m c) (aHT m c) (aWX m c) (aBX m c) (aWH m c) (aBH m c)) := by
  rw [Value.flushed10]
  unfold out0_10
  simp only [View.ld_unit_zero (S := S512x512) hz, View.ld_unit_zero (S := S3584x512) hz, View.ld_unit_zero (S := S1x3584) hz]
  funext y
  obtain ⟨e0, e1⟩ := idx_out10 t
  have hr : (((cfg0.win 10).blk t).view.emb y (0 : Fin 2)).val = t.val * 512 + (y 0).val := by
    show win0_10.index t (0 : Fin 2) * 512 + 1 * (y 0).val = _; omega
  have hq : (((cfg0.win 10).blk t).view.emb y (1 : Fin 2)).val = (y 1).val := by
    show win0_10.index t (1 : Fin 2) * 512 + 1 * (y 1).val = _; omega
  refine (Value.canon10_eq (iblk m c 0 t) (iblk m c 1 t) (iblk m c 3 t) (iblk m c 5 t) (iblk m c 4 t) (iblk m c 6 t) y).trans ?_
  refine (Cells.E10_at (iblk m c 0 t) (iblk m c 1 t) (iblk m c 3 t) (iblk m c 5 t) (iblk m c 4 t) (iblk m c 6 t) y).trans ?_
  exact congr2 Cert.Cell.cellO (blockGate_eq m c t (y 0) _ hr) (Fin.ext hq.symm)

/-- An index of the array lies in step t's block iff each coordinate lies in the block's range on its axis. -/
theorem mem_blk10 (t : Fin cfg0.N) (i : S16384x512.Idx) :
    i ∈ ((cfg0.win 10).blk t).view.set ↔ ∀ a : Fin 2, win0_10.index t a * S512x512.size a ≤ (i a).val
      ∧ (i a).val < win0_10.index t a * S512x512.size a + S512x512.size a := by
  show i ∈ ((View.whole main_v2_3).slice (win0_10.rect t)).set ↔ _
  rw [View.set_slice_whole, Rect.mem_set_unit]
  exact Iff.rfl

/-- Row r of the array is written by step r / 512: the 32 blocks of 512 rows tile the 16384 rows. -/
theorem cover10 (i : S16384x512.Idx) :
    ∃ t : Fin cfg0.N, (cfg0.win 10).flush t = true ∧ i ∈ ((cfg0.win 10).blk t).view.set := by
  have hi0 : (i 0).val < 16384 := (i 0).isLt
  have hi1 : (i 1).val < 512 := (i 1).isLt
  have hN : grid0.N = 32 := N_0
  obtain ⟨t, ht⟩ : ∃ t : Fin cfg0.N, t.val = (i 0).val / 512 :=
    ⟨⟨(i 0).val / 512, by show (i 0).val / 512 < grid0.N; omega⟩, rfl⟩
  obtain ⟨e0, e1⟩ := idx_out10 t
  refine ⟨t, flush0_10 t, ?_⟩
  rw [mem_blk10]
  intro a
  match a with
  | ⟨0, _⟩ =>
    show win0_10.index t (0 : Fin 2) * 512 ≤ (i 0).val ∧ (i 0).val < win0_10.index t (0 : Fin 2) * 512 + 512; omega
  | ⟨1, _⟩ =>
    show win0_10.index t (1 : Fin 2) * 512 ≤ (i 1).val ∧ (i 1).val < win0_10.index t (1 : Fin 2) * 512 + 512; omega

/-- The array after the run is the specification's. -/
theorem final10 (c : Dev nD) : (dats m 0 c).arrAt 10 cfg0.N = Cert.Cell.outO (aX m c) (aHT m c) (aWX m c) (aBX m c) (aWH m c) (aBH m c) :=
  (dats m 0 c).arrAt_eq_of_cover 10 _ (fun t _ => flushed10_eq m c t) (cover10)

/-! ## The decay rates (output window 11) -/

/-- The block's two index coordinates at grid step t: the step number, and 0. -/
theorem idx_out11 : ∀ t : Fin cfg0.N, win0_11.index t (0 : Fin 2) = t.val ∧ win0_11.index t (1 : Fin 2) = 0 :=
  (by decide +kernel : ∀ t : Fin grid0.N, _)

/-- What grid step t writes back is block t of the specification's array. -/
theorem flushed11_eq (c : Dev nD) (t : Fin cfg0.N) :
    (dats m 0 c).flushed 11 t = ((cfg0.win 11).blk t).view.read (Elt Ideal) (Cert.Cell.outDecay (aX m c) (aHT m c) (aWX m c) (aBX m c) (aWH m c) (aBH m c)) := by
  rw [Value.flushed11]
  unfold out0_11
  rw [View.canon_unit_zero hz]
  simp only [View.ld_unit_zero (S := S512x512) hz, View.ld_unit_zero (S := S3584x512) hz, View.ld_unit_zero (S := S1x3584) hz]
  funext y
  obtain ⟨e0, e1⟩ := idx_out11 t
  have hr : (((cfg0.win 11).blk t).view.emb y (0 : Fin 2)).val = t.val * 512 + (y 0).val := by
    show win0_11.index t (0 : Fin 2) * 512 + 1 * (y 0).val = _; omega
  have hq : (((cfg0.win 11).blk t).view.emb y (1 : Fin 2)).val = (y 1).val := by
    show win0_11.index t (1 : Fin 2) * 512 + 1 * (y 1).val = _; omega
  refine (Cells.pay1_at (iblk m c 0 t) (iblk m c 1 t) (iblk m c 3 t) (iblk m c 5 t) (iblk m c 4 t) (iblk m c 6 t) y).trans ?_
  exact congr2 Cert.Cell.cellDecay (blockGate_eq m c t (y 0) _ hr) (Fin.ext hq.symm)

/-- An index of the array lies in step t's block iff each coordinate lies in the block's range on its axis. -/
theorem mem_blk11 (t : Fin cfg0.N) (i : S16384x512.Idx) :
    i ∈ ((cfg0.win 11).blk t).view.set ↔ ∀ a : Fin 2, win0_11.index t a * S512x512.size a ≤ (i a).val
      ∧ (i a).val < win0_11.index t a * S512x512.size a + S512x512.size a := by
  show i ∈ ((View.whole main_v2_4).slice (win0_11.rect t)).set ↔ _
  rw [View.set_slice_whole, Rect.mem_set_unit]
  exact Iff.rfl

/-- Row r of the array is written by step r / 512: the 32 blocks of 512 rows tile the 16384 rows. -/
theorem cover11 (i : S16384x512.Idx) :
    ∃ t : Fin cfg0.N, (cfg0.win 11).flush t = true ∧ i ∈ ((cfg0.win 11).blk t).view.set := by
  have hi0 : (i 0).val < 16384 := (i 0).isLt
  have hi1 : (i 1).val < 512 := (i 1).isLt
  have hN : grid0.N = 32 := N_0
  obtain ⟨t, ht⟩ : ∃ t : Fin cfg0.N, t.val = (i 0).val / 512 :=
    ⟨⟨(i 0).val / 512, by show (i 0).val / 512 < grid0.N; omega⟩, rfl⟩
  obtain ⟨e0, e1⟩ := idx_out11 t
  refine ⟨t, flush0_11 t, ?_⟩
  rw [mem_blk11]
  intro a
  match a with
  | ⟨0, _⟩ =>
    show win0_11.index t (0 : Fin 2) * 512 ≤ (i 0).val ∧ (i 0).val < win0_11.index t (0 : Fin 2) * 512 + 512; omega
  | ⟨1, _⟩ =>
    show win0_11.index t (1 : Fin 2) * 512 ≤ (i 1).val ∧ (i 1).val < win0_11.index t (1 : Fin 2) * 512 + 512; omega

/-- The array after the run is the specification's. -/
theorem final11 (c : Dev nD) : (dats m 0 c).arrAt 11 cfg0.N = Cert.Cell.outDecay (aX m c) (aHT m c) (aWX m c) (aBX m c) (aWH m c) (aBH m c) :=
  (dats m 0 c).arrAt_eq_of_cover 11 _ (fun t _ => flushed11_eq m c t) (cover11)

/-! ## The run, read -/

/-- Every weakly fair execution ends with the five output arrays at the specification's functions of the argument arrays,
    and the arguments unchanged. -/
theorem run : θ_run defs (onTc (τ := τ) (main (F := Ideal))) ⟨m, fun _ => 0, ρ⟩ fun r => ∀ c : Dev nD,
      r.2.mem ((c : Thread nD τ).loc main_v2_0) = Cert.Cell.outH (aX m c) (aHT m c) (aCT m c) (aWX m c) (aBX m c) (aWH m c) (aBH m c)
      ∧ r.2.mem ((c : Thread nD τ).loc main_v2_1) = Cert.Cell.outC (aX m c) (aHT m c) (aCT m c) (aWX m c) (aBX m c) (aWH m c) (aBH m c)
      ∧ r.2.mem ((c : Thread nD τ).loc main_v2_2) = Cert.Cell.outCbar (aX m c) (aHT m c) (aCT m c) (aWX m c) (aBX m c) (aWH m c) (aBH m c)
      ∧ r.2.mem ((c : Thread nD τ).loc main_v2_3) = Cert.Cell.outO (aX m c) (aHT m c) (aWX m c) (aBX m c) (aWH m c) (aBH m c)
      ∧ r.2.mem ((c : Thread nD τ).loc main_v2_4) = Cert.Cell.outDecay (aX m c) (aHT m c) (aWX m c) (aBX m c) (aWH m c) (aBH m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c),
      (h c).2.2.1.trans (final9 m c), (h c).2.2.2.1.trans (final10 m c), (h c).2.2.2.2.1.trans (final11 m c),
      (h c).2.2.2.2.2⟩)
    (Value.run_blocks m ρ)

end Cert.KernelIdeal.Arrays

end
-- ==== Proof.RefCells.lean ====
/-
  The reference's five results, entry by entry.

  The reference forms the [16384, 3584] pre-activation array of the whole batch at once, as
  (x · transpose wx + bx) + (ht · transpose wh + bh), cuts it into the seven lane groups, writes each logistic gate as the
  quotient 1 / (1 + exp (−w)), and computes the decay rate by a guarded log-add-exp of the decay pre-activation and 0.
  Read at row r, lane e the pre-activation array is the row pre-activation of CellSpec: a product against a transposed
  matrix reads that matrix at the swapped index, so its sum is ∑ₖ x (r, k) · wx (e, k); a bias broadcast in two steps reads
  the vector at lane e. A lane group's slice at (r, j) reads the array at the group's lane of j. So every result at
  (r, j) is the corresponding cell function of row r's pre-activations, and the result arrays are the specification's.
-/
import proofs.«106204_j90065464197524_2_alg».proof.Proof.Gen.ReferenceIdeal.Read
import proofs.«106204_j90065464197524_2_alg».proof.Proof.CellSpec

noncomputable section

open scoped BigOperators

namespace Cert.ReferenceIdeal.Cells

open Cert.ReferenceIdeal Cert.ReferenceIdeal.Gen Cert.ReferenceIdeal.Read Idealize.ShloMosaic Idealize.ShloMosaic.ValueIdx
open Cert.Cell (laneI laneF laneZ laneO laneD laneIb laneFb gateAt)

variable (x0 x1 x2 : (⟨S16384x512, .f32⟩ : BufTy).Contents (Elt Ideal)) (x3 : (⟨S3584x512, .f32⟩ : BufTy).Contents (Elt Ideal))
  (x4 : (⟨S3584, .f32⟩ : BufTy).Contents (Elt Ideal)) (x5 : (⟨S3584x512, .f32⟩ : BufTy).Contents (Elt Ideal))
  (x6 : (⟨S3584, .f32⟩ : BufTy).Contents (Elt Ideal)) (r : Fin 16384) (j : Fin 512)

/-! ## The pre-activation array and its seven lane groups -/

/-- The pre-activation array at row r, lane e is row r's pre-activation at lane e. -/
theorem pre_apply (e : Fin 3584) :
    val_main_v10 (F := Ideal) x0 x1 x3 x4 x5 x6 (ix2 r e) = gateAt x0 x1 x3 x4 x5 x6 r e := by
  have hl : ∀ k : Fin 512, lidx_main_v1 (ix2 r e) k = ix2 r k := fun k =>
    funext fun a => by match a with | ⟨0, _⟩ => rfl | ⟨1, _⟩ => rfl
  have hr : ∀ k : Fin 512, idx_main_v0 (ridx_main_v1 (ix2 r e) k) = ix2 e k := fun k =>
    funext fun a => by match a with | ⟨0, _⟩ => rfl | ⟨1, _⟩ => rfl
  have hl' : ∀ k : Fin 512, lidx_main_v6 (ix2 r e) k = ix2 r k := fun k =>
    funext fun a => by match a with | ⟨0, _⟩ => rfl | ⟨1, _⟩ => rfl
  have hr' : ∀ k : Fin 512, idx_main_v5 (ridx_main_v6 (ix2 r e) k) = ix2 e k := fun k =>
    funext fun a => by match a with | ⟨0, _⟩ => rfl | ⟨1, _⟩ => rfl
  have hb : idx_main_v2 (idx_main_v3 (ix2 r e)) = ix1 e := funext fun a => by match a with | ⟨0, _⟩ => rfl
  have hb' : idx_main_v7 (idx_main_v8 (ix2 r e)) = ix1 e := funext fun a => by match a with | ⟨0, _⟩ => rfl
  rw [val_main_v10_apply, val_main_v4_apply, val_main_v9_apply, val_main_v1_apply, val_main_v6_apply, val_main_v3_apply,
    val_main_v8_apply, val_main_v2_apply, val_main_v7_apply]
  simp only [val_main_v0_apply, val_main_v5_apply, hl, hr, hl', hr', hb, hb']
  rfl

theorem groupI_apply : val_main_v11 (F := Ideal) x0 x1 x3 x4 x5 x6 (ix2 r j) = gateAt x0 x1 x3 x4 x5 x6 r (laneI j) := by
  have e : idx_main_v11 (ix2 r j) = ix2 r (laneI j) := funext fun a => by match a with | ⟨0, _⟩ => rfl | ⟨1, _⟩ => rfl
  rw [val_main_v11_apply, e]; exact pre_apply x0 x1 x3 x4 x5 x6 r _
theorem groupF_apply : val_main_v12 (F := Ideal) x0 x1 x3 x4 x5 x6 (ix2 r j) = gateAt x0 x1 x3 x4 x5 x6 r (laneF j) := by
  have e : idx_main_v12 (ix2 r j) = ix2 r (laneF j) :=
    funext fun a => by match a with | ⟨0, _⟩ => rfl | ⟨1, _⟩ => exact Fin.ext (Nat.add_comm _ _)
  rw [val_main_v12_apply, e]; exact pre_apply x0 x1 x3 x4 x5 x6 r _
theorem groupZ_apply : val_main_v13 (F := Ideal) x0 x1 x3 x4 x5 x6 (ix2 r j) = gateAt x0 x1 x3 x4 x5 x6 r (laneZ j) := by
  have e : idx_main_v13 (ix2 r j) = ix2 r (laneZ j) :=
    funext fun a => by match a with | ⟨0, _⟩ => rfl | ⟨1, _⟩ => exact Fin.ext (Nat.add_comm _ _)
  rw [val_main_v13_apply, e]; exact pre_apply x0 x1 x3 x4 x5 x6 r _
theorem groupO_apply : val_main_v14 (F := Ideal) x0 x1 x3 x4 x5 x6 (ix2 r j) = gateAt x0 x1 x3 x4 x5 x6 r (laneO j) := by
  have e : idx_main_v14 (ix2 r j) = ix2 r (laneO j) :=
    funext fun a => by match a with | ⟨0, _⟩ => rfl | ⟨1, _⟩ => exact Fin.ext (Nat.add_comm _ _)
  rw [val_main_v14_apply, e]; exact pre_apply x0 x1 x3 x4 x5 x6 r _
theorem groupD_apply : val_main_v15 (F := Ideal) x0 x1 x3 x4 x5 x6 (ix2 r j) = gateAt x0 x1 x3 x4 x5 x6 r (laneD j) := by
  have e : idx_main_v15 (ix2 r j) = ix2 r (laneD j) :=
    funext fun a => by match a with | ⟨0, _⟩ => rfl | ⟨1, _⟩ => exact Fin.ext (Nat.add_comm _ _)
  rw [val_main_v15_apply, e]; exact pre_apply x0 x1 x3 x4 x5 x6 r _
theorem groupIb_apply : val_main_v16 (F := Ideal) x0 x1 x3 x4 x5 x6 (ix2 r j) = gateAt x0 x1 x3 x4 x5 x6 r (laneIb j) := by
  have e : idx_main_v16 (ix2 r j) = ix2 r (laneIb j) :=
    funext fun a => by match a with | ⟨0, _⟩ => rfl | ⟨1, _⟩ => exact Fin.ext (Nat.add_comm _ _)
  rw [val_main_v16_apply, e]; exact pre_apply x0 x1 x3 x4 x5 x6 r _
theorem groupFb_apply : val_main_v17 (F := Ideal) x0 x1 x3 x4 x5 x6 (ix2 r j) = gateAt x0 x1 x3 x4 x5 x6 r (laneFb j) := by
  have e : idx_main_v17 (ix2 r j) = ix2 r (laneFb j) :=
    funext fun a => by match a with | ⟨0, _⟩ => rfl | ⟨1, _⟩ => exact Fin.ext (Nat.add_comm _ _)
  rw [val_main_v17_apply, e]; exact pre_apply x0 x1 x3 x4 x5 x6 r _

/-! ## The gates: each quotient 1 / (1 + exp (−w)) is the logistic function of its lane group -/

theorem sigI_apply :
    val_main_v23 (F := Ideal) x0 x1 x3 x4 x5 x6 (ix2 r j) = Ideal.logistic (gateAt x0 x1 x3 x4 x5 x6 r (laneI j)) := by
  rw [val_main_v23_apply, val_main_v22_apply, val_main_cst_0_apply, val_main_v21_apply, val_main_v20_apply,
    val_main_cst_apply, val_main_v19_apply, val_main_v18_apply, groupI_apply]
  exact Cert.LibGateFunctions.logistic_quotient _
theorem sigF_apply :
    val_main_v29 (F := Ideal) x0 x1 x3 x4 x5 x6 (ix2 r j) = Ideal.logistic (gateAt x0 x1 x3 x4 x5 x6 r (laneF j)) := by
  rw [val_main_v29_apply, val_main_v28_apply, val_main_cst_2_apply, val_main_v27_apply, val_main_v26_apply,
    val_main_cst_1_apply, val_main_v25_apply, val_main_v24_apply, groupF_apply]
  exact Cert.LibGateFunctions.logistic_quotient _
theorem sigO_apply :
    val_main_v36 (F := Ideal) x0 x1 x3 x4 x5 x6 (ix2 r j) = Ideal.logistic (gateAt x0 x1 x3 x4 x5 x6 r (laneO j)) := by
  rw [val_main_v36_apply, val_main_v35_apply, val_main_cst_4_apply, val_main_v34_apply, val_main_v33_apply,
    val_main_cst_3_apply, val_main_v32_apply, val_main_v31_apply, groupO_apply]
  exact Cert.LibGateFunctions.logistic_quotient _
theorem sigIb_apply :
    val_main_v42 (F := Ideal) x0 x1 x3 x4 x5 x6 (ix2 r j) = Ideal.logistic (gateAt x0 x1 x3 x4 x5 x6 r (laneIb j)) := by
  rw [val_main_v42_apply, val_main_v41_apply, val_main_cst_6_apply, val_main_v40_apply, val_main_v39_apply,
    val_main_cst_5_apply, val_main_v38_apply, val_main_v37_apply, groupIb_apply]
  exact Cert.LibGateFunctions.logistic_quotient _
theorem sigFb_apply :
    val_main_v48 (F := Ideal) x0 x1 x3 x4 x5 x6 (ix2 r j) = Ideal.logistic (gateAt x0 x1 x3 x4 x5 x6 r (laneFb j)) := by
  rw [val_main_v48_apply, val_main_v47_apply, val_main_cst_8_apply, val_main_v46_apply, val_main_v45_apply,
    val_main_cst_7_apply, val_main_v44_apply, val_main_v43_apply, groupFb_apply]
  exact Cert.LibGateFunctions.logistic_quotient _
theorem tanhZ_apply :
    val_main_v30 (F := Ideal) x0 x1 x3 x4 x5 x6 (ix2 r j) = Ideal.tanh (gateAt x0 x1 x3 x4 x5 x6 r (laneZ j)) := by
  rw [val_main_v30_apply, groupZ_apply]; rfl

/-! ## The five results at (r, j) -/

theorem c_apply : val_main_v51 (F := Ideal) x0 x1 x2 x3 x4 x5 x6 (ix2 r j)
    = Cert.Cell.cellC (gateAt x0 x1 x3 x4 x5 x6 r) (x2 (ix2 r j)) j := by
  rw [val_main_v51_apply, val_main_v49_apply, val_main_v50_apply, sigF_apply, sigI_apply, tanhZ_apply]; rfl
theorem h_apply : val_main_v53 (F := Ideal) x0 x1 x2 x3 x4 x5 x6 (ix2 r j)
    = Cert.Cell.cellH (gateAt x0 x1 x3 x4 x5 x6 r) (x2 (ix2 r j)) j := by
  rw [val_main_v53_apply, val_main_v52_apply, sigO_apply, c_apply]; rfl
theorem cbar_apply : val_main_v56 (F := Ideal) x0 x1 x2 x3 x4 x5 x6 (ix2 r j)
    = Cert.Cell.cellCbar (gateAt x0 x1 x3 x4 x5 x6 r) (x2 (ix2 r j)) j := by
  rw [val_main_v56_apply, val_main_v54_apply, val_main_v55_apply, sigFb_apply, sigIb_apply, tanhZ_apply]; rfl
theorem o_apply : val_main_v36 (F := Ideal) x0 x1 x3 x4 x5 x6 (ix2 r j) = Cert.Cell.cellO (gateAt x0 x1 x3 x4 x5 x6 r) j :=
  sigO_apply x0 x1 x3 x4 x5 x6 r j
theorem decay_apply : val_main_v57 (F := Ideal) x0 x1 x3 x4 x5 x6 (ix2 r j)
    = Cert.Cell.cellDecay (gateAt x0 x1 x3 x4 x5 x6 r) j := by
  rw [val_main_v57_apply, val_main_call0_v4_apply, val_main_call0_v6_apply, val_main_call0_v11_apply, val_main_call0_v1_apply,
    val_main_call0_v10_apply, val_main_call0_v9_apply, val_main_call0_v8_apply, val_main_call0_v7_apply, val_main_call0_v3_apply,
    val_main_call0_v0_apply, val_main_call0_v2_apply, val_main_call0_v5_apply, val_main_call0_cst_apply, groupD_apply]
  exact Cert.LibGateFunctions.softplus_guard_neg _

/-! ## The result arrays are the specification's -/

theorem h_eq : val_main_v53 (F := Ideal) x0 x1 x2 x3 x4 x5 x6 = Cert.Cell.outH x0 x1 x2 x3 x4 x5 x6 := by
  funext i
  obtain ⟨r, j, rfl⟩ : ∃ (r : Fin 16384) (j : Fin 512), i = ix2 r j := ⟨i 0, i 1, eq_ix2 i⟩
  exact h_apply x0 x1 x2 x3 x4 x5 x6 r j
theorem c_eq : val_main_v51 (F := Ideal) x0 x1 x2 x3 x4 x5 x6 = Cert.Cell.outC x0 x1 x2 x3 x4 x5 x6 := by
  funext i
  obtain ⟨r, j, rfl⟩ : ∃ (r : Fin 16384) (j : Fin 512), i = ix2 r j := ⟨i 0, i 1, eq_ix2 i⟩
  exact c_apply x0 x1 x2 x3 x4 x5 x6 r j
theorem cbar_eq : val_main_v56 (F := Ideal) x0 x1 x2 x3 x4 x5 x6 = Cert.Cell.outCbar x0 x1 x2 x3 x4 x5 x6 := by
  funext i
  obtain ⟨r, j, rfl⟩ : ∃ (r : Fin 16384) (j : Fin 512), i = ix2 r j := ⟨i 0, i 1, eq_ix2 i⟩
  exact cbar_apply x0 x1 x2 x3 x4 x5 x6 r j
theorem o_eq : val_main_v36 (F := Ideal) x0 x1 x3 x4 x5 x6 = Cert.Cell.outO x0 x1 x3 x4 x5 x6 := by
  funext i
  obtain ⟨r, j, rfl⟩ : ∃ (r : Fin 16384) (j : Fin 512), i = ix2 r j := ⟨i 0, i 1, eq_ix2 i⟩
  exact o_apply x0 x1 x3 x4 x5 x6 r j
theorem decay_eq : val_main_v57 (F := Ideal) x0 x1 x3 x4 x5 x6 = Cert.Cell.outDecay x0 x1 x3 x4 x5 x6 := by
  funext i
  obtain ⟨r, j, rfl⟩ : ∃ (r : Fin 16384) (j : Fin 512), i = ix2 r j := ⟨i 0, i 1, eq_ix2 i⟩
  exact decay_apply x0 x1 x3 x4 x5 x6 r j

end Cert.ReferenceIdeal.Cells

end
-- ==== Proof.lean ====
/-
  The continuous-time LSTM cell: a kernel tiled over the batch against its array-at-a-time reference, equal over the
  extended reals.

  Both programs take x, ht, ct : [16384, 512], weight matrices Wx, Wh : [3584, 512] stored [out, in], and biases
  bx, bh : [3584], and return five [16384, 512] arrays h, c, c̄, o and the decay rate. Both form the pre-activation
  (x · Wxᵀ + bx) + (ht · Whᵀ + bh), cut its 3584 = 7 · 512 lanes into seven groups, and apply the same gates:
  c = σ f · ct + σ i · tanh z, h = σ o · tanh c, c̄ = σ f̄ · ct + σ ī · tanh z, o = σ o, decay = softplus d.

  They differ in arrangement and spelling only. The kernel runs 32 grid steps of 512 batch rows each, contracting the second
  axis of the weights directly; the reference transposes the weights and multiplies the whole batch at once. The kernel
  applies the logistic function as one operation; the reference writes 1 / (1 + exp (−w)), which is that function's
  definition. Both compute softplus as a guarded log-add-exp of d and 0 whose guard (d − 0 differs from itself) never
  holds over the extended reals, the kernel negating by 0 − a and with the ordered comparison, the reference by −a and
  with the unordered one. Every output entry depends on one batch row, so the kernel's blocks are the blocks of one
  whole-array function (CellSpec), which the reference's results also equal, entry by entry. No step uses finiteness of the
  inputs: the sums are the same sums in the same order, and no algebraic law is applied across them.

  The three frames are the generated ones (the reference's is its generated run with the results dropped). Reading the
  kernel over the extended reals rewrote none of its operations, so the claim that this reading is faithful is trivial.
-/
import proofs.«106204_j90065464197524_2_alg».proof.Defs
import proofs.«106204_j90065464197524_2_alg».proof.Proof.Gen.Kernel
import proofs.«106204_j90065464197524_2_alg».proof.Proof.Gen.Kernel.Frame
import proofs.«106204_j90065464197524_2_alg».proof.Proof.Gen.KernelIdeal
import proofs.«106204_j90065464197524_2_alg».proof.Proof.Gen.KernelIdeal.Frame
import proofs.«106204_j90065464197524_2_alg».proof.Proof.Gen.ReferenceIdeal
import proofs.«106204_j90065464197524_2_alg».proof.Proof.Gen.Pre_finite_inputs
import proofs.«106204_j90065464197524_2_alg».proof.Proof.Gen.KernelIdeal.Value
import proofs.«106204_j90065464197524_2_alg».proof.Proof.Gen.ReferenceIdeal.Run
import proofs.«106204_j90065464197524_2_alg».proof.Proof.Gen.ReferenceIdeal.Read
import proofs.«106204_j90065464197524_2_alg».proof.Proof.KernelArrays
import proofs.«106204_j90065464197524_2_alg».proof.Proof.RefCells
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with what it says of the results dropped. -/
theorem frame_referenceIdeal : Cert.frame_ReferenceIdeal := fun m ρ _ =>
  (θ_run Cert.ReferenceIdeal.defs _ _).mono (fun _ h c => (h c).2.2.2.2.2)
    (Cert.ReferenceIdeal.Value.run (F := Ideal) m ρ)

/-- Reading the kernel over the extended reals rewrote none of its operations: nothing to show. -/
theorem preserves : Cert.preserves_Kernel_KernelIdeal := trivial

/-- From memories agreeing on the seven arguments both programs end with each of the five results at the specification's
    function of the arguments: the kernel's arrays block by block (KernelArrays), the reference's stage by stage
    (RefCells). -/
theorem algebraic : Cert.algebraic_KernelIdeal_ReferenceIdeal := by
  intro m ρ m' ρ' _ hagree
  refine ⟨_, _, _, _, _, Cert.KernelIdeal.Arrays.run m ρ, ?_⟩
  refine (θ_run Cert.ReferenceIdeal.defs _ _).mono (fun _ h c => ⟨?_, ?_, ?_, ?_, ?_, (h c).2.2.2.2.2⟩)
    (Cert.ReferenceIdeal.Value.run (F := Ideal) m' ρ')
  · rw [(h c).1, Cert.ReferenceIdeal.Read.val_main_v53_eq, Cert.ReferenceIdeal.Cells.h_eq,
      (hagree c).1, (hagree c).2.1, (hagree c).2.2.1, (hagree c).2.2.2.1, (hagree c).2.2.2.2.1, (hagree c).2.2.2.2.2.1,
      (hagree c).2.2.2.2.2.2]
  · rw [(h c).2.1, Cert.ReferenceIdeal.Read.val_main_v51_eq, Cert.ReferenceIdeal.Cells.c_eq,
      (hagree c).1, (hagree c).2.1, (hagree c).2.2.1, (hagree c).2.2.2.1, (hagree c).2.2.2.2.1, (hagree c).2.2.2.2.2.1,
      (hagree c).2.2.2.2.2.2]
  · rw [(h c).2.2.1, Cert.ReferenceIdeal.Read.val_main_v56_eq, Cert.ReferenceIdeal.Cells.cbar_eq,
      (hagree c).1, (hagree c).2.1, (hagree c).2.2.1, (hagree c).2.2.2.1, (hagree c).2.2.2.2.1, (hagree c).2.2.2.2.2.1,
      (hagree c).2.2.2.2.2.2]
  · rw [(h c).2.2.2.1, Cert.ReferenceIdeal.Read.val_main_v36_eq, Cert.ReferenceIdeal.Cells.o_eq,
      (hagree c).1, (hagree c).2.1, (hagree c).2.2.2.1, (hagree c).2.2.2.2.1, (hagree c).2.2.2.2.2.1,
      (hagree c).2.2.2.2.2.2]
  · rw [(h c).2.2.2.2.1, Cert.ReferenceIdeal.Read.val_main_v57_eq, Cert.ReferenceIdeal.Cells.decay_eq,
      (hagree c).1, (hagree c).2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
